-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x224x224 : Shape := ⟨4, ![32, 3, 224, 224]⟩
abbrev S64x75 : Shape := ⟨2, ![64, 75]⟩
abbrev S_ : Shape := ⟨0, ![]⟩

class Facts : Prop where
  bcast_S_S32x3x224x224 : S_.BroadcastsInDim S32x3x224x224 (![] : Fin 0 → Fin S32x3x224x224.rank)
  reducesTo_S32x3x224x224_S_d0_1_2_3 : S32x3x224x224.ReducesTo [0, 1, 2, 3] S_
  h_S_ : 0 < S_.numel
  bcast_S_S64x75 : S_.BroadcastsInDim S64x75 (![] : Fin 0 → Fin S64x75.rank)
  reducesTo_S64x75_S_d0_1 : S64x75.ReducesTo [0, 1] S_

variable [Facts]

def fn {F : FTy → Type} [FloatOps F] (main_arg0 : FVec F S32x3x224x224 .f32) (main_arg1 : FVec F S64x75 .f32) : IVec S_ 1 :=
  let main_v0 : FVec F S32x3x224x224 .f32 := Host.absf main_arg0
  let main_cst : FVec F S_ .f32 := constant S_ .f32 0x7F800000#32
  let main_v1 : FVec F S32x3x224x224 .f32 := broadcastInDim S32x3x224x224 ![] bcast_S_S32x3x224x224 main_cst
  let main_v2 : IVec S32x3x224x224 1 := cmpf .olt main_v0 main_v1
  let main_c : IVec S_ 1 := constantI S_ 1 1#1
  let main_v3 : IVec S_ 1 := (fun x v => Host.reduce IntOp.andi x v reducesTo_S32x3x224x224_S_d0_1_2_3 h_S_) main_v2 main_c
  let main_v4 : FVec F S64x75 .f32 := Host.absf main_arg1
  let main_cst_0 : FVec F S_ .f32 := constant S_ .f32 0x7F800000#32
  let main_v5 : FVec F S64x75 .f32 := broadcastInDim S64x75 ![] bcast_S_S64x75 main_cst_0
  let main_v6 : IVec S64x75 1 := cmpf .olt main_v4 main_v5
  let main_c_1 : IVec S_ 1 := constantI S_ 1 1#1
  let main_v7 : IVec S_ 1 := (fun x v => Host.reduce IntOp.andi x v reducesTo_S64x75_S_d0_1 h_S_) main_v6 main_c_1
  let main_v8 : IVec S_ 1 := andi main_v3 main_v7
  main_v8
-- ==== Kernel.lean ====
abbrev S32x3x224x224 : Shape := ⟨4, ![32, 3, 224, 224]⟩
abbrev S64x75 : Shape := ⟨2, ![64, 75]⟩
abbrev S_ : Shape := ⟨0, ![]⟩
abbrev S32x3x228x228 : Shape := ⟨4, ![32, 3, 228, 228]⟩
abbrev S32x64x224x224 : Shape := ⟨4, ![32, 64, 224, 224]⟩
abbrev S1x3x228x228 : Shape := ⟨4, ![1, 3, 228, 228]⟩
abbrev S1x64x32x224 : Shape := ⟨4, ![1, 64, 32, 224]⟩
abbrev S1x3x36x228 : Shape := ⟨4, ![1, 3, 36, 228]⟩
abbrev S3x36x228 : Shape := ⟨3, ![3, 36, 228]⟩
abbrev S36x228 : Shape := ⟨2, ![36, 228]⟩
abbrev S32x224 : Shape := ⟨2, ![32, 224]⟩
abbrev S3x32x224 : Shape := ⟨3, ![3, 32, 224]⟩
abbrev S3x1x32x224 : Shape := ⟨4, ![3, 1, 32, 224]⟩
abbrev S3x25x32x224 : Shape := ⟨4, ![3, 25, 32, 224]⟩
abbrev S75x32x224 : Shape := ⟨3, ![75, 32, 224]⟩
abbrev S64 : Shape := ⟨1, ![64]⟩
abbrev S75x1x224 : Shape := ⟨3, ![75, 1, 224]⟩
abbrev S75x224 : Shape := ⟨2, ![75, 224]⟩
abbrev S64x224 : Shape := ⟨2, ![64, 224]⟩
abbrev S64x1 : Shape := ⟨2, ![64, 1]⟩
abbrev S1x224 : Shape := ⟨2, ![1, 224]⟩
abbrev S1x64x1x224 : Shape := ⟨4, ![1, 64, 1, 224]⟩

abbrev nBuf : Space → Nat
  | .hbm => 6
  | .vmem => 5
  | .smem => 0
  | _ => 0

abbrev bufTy : (tb : Table) → Fin (tcTables nBuf tb) → BufTy
  | .hbm, ⟨0, _⟩ => ⟨S32x3x224x224, .f32⟩
  | .hbm, ⟨1, _⟩ => ⟨S64x75, .f32⟩
  | .hbm, ⟨2, _⟩ => ⟨S_, .i32⟩
  | .hbm, ⟨3, _⟩ => ⟨S_, .f32⟩
  | .hbm, ⟨4, _⟩ => ⟨S32x3x228x228, .f32⟩
  | .hbm, ⟨5, _⟩ => ⟨S32x64x224x224, .f32⟩
  | .local _ .vmem, ⟨0, _⟩ => ⟨S1x3x228x228, .f32⟩
  | .local _ .vmem, ⟨1, _⟩ => ⟨S1x3x228x228, .f32⟩
  | .local _ .vmem, ⟨2, _⟩ => ⟨S64x75, .f32⟩
  | .local _ .vmem, ⟨3, _⟩ => ⟨S1x64x32x224, .f32⟩
  | .local _ .vmem, ⟨4, _⟩ => ⟨S1x64x32x224, .f32⟩
  | _, _ => ⟨S32x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 7], ![false, false]⟩

def k0_mult1 (i : grid0.Coords) : BitVec 32 :=
  let arg1 : BitVec 32 := BitVec.ofNat 32 (i 1).val
  let c32_i32 : BitVec 32 := 32#32
  let v0 : BitVec 32 := Scalar.muli arg1 c32_i32
  v0
def k0_off1 (i : grid0.Coords) : Fin 4 → Nat :=
  let c0 : Index := 0#32
  let c0_0 : Index := 0#32
  let arg1 : BitVec 32 := BitVec.ofNat 32 (i 1).val
  let c32_i32 : BitVec 32 := 32#32
  let v0 : BitVec 32 := Scalar.muli arg1 c32_i32
  let v1 : BitVec 32 := v0
  let v2 : Index := Scalar.indexCast v1
  let c0_1 : Index := 0#32
  ![0, 0, v2.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x3x228x228 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S64x75 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x64x32x224 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S32x3x224x224_S32x3x228x228_000_000_220_220 : S32x3x224x224.Pads (![0, 0, 2, 2] : Fin 4 → Nat) ![0, 0, 2, 2] ![0, 0, 0, 0] S32x3x228x228
  h_S_ : 0 < S_.numel
  h_S1x3x36x228 : 0 < S1x3x36x228.numel
  shapeCasts_S1x3x36x228_S3x36x228 : S1x3x36x228.ShapeCasts S3x36x228
  reduces_S3x36x228_S36x228 : S3x36x228.Reduces [0] S36x228
  slices_S36x228_o0_0_S32x224 : S36x228.Slices ![0, 0] S32x224
  slices_S36x228_o0_1_S32x224 : S36x228.Slices ![0, 1] S32x224
  slices_S36x228_o0_2_S32x224 : S36x228.Slices ![0, 2] S32x224
  slices_S36x228_o0_3_S32x224 : S36x228.Slices ![0, 3] S32x224
  slices_S36x228_o0_4_S32x224 : S36x228.Slices ![0, 4] S32x224
  slices_S36x228_o1_0_S32x224 : S36x228.Slices ![1, 0] S32x224
  slices_S36x228_o1_1_S32x224 : S36x228.Slices ![1, 1] S32x224
  slices_S36x228_o1_2_S32x224 : S36x228.Slices ![1, 2] S32x224
  slices_S36x228_o1_3_S32x224 : S36x228.Slices ![1, 3] S32x224
  slices_S36x228_o1_4_S32x224 : S36x228.Slices ![1, 4] S32x224
  slices_S36x228_o2_0_S32x224 : S36x228.Slices ![2, 0] S32x224
  slices_S36x228_o2_1_S32x224 : S36x228.Slices ![2, 1] S32x224
  slices_S36x228_o2_2_S32x224 : S36x228.Slices ![2, 2] S32x224
  slices_S36x228_o2_3_S32x224 : S36x228.Slices ![2, 3] S32x224
  slices_S36x228_o2_4_S32x224 : S36x228.Slices ![2, 4] S32x224
  slices_S36x228_o3_0_S32x224 : S36x228.Slices ![3, 0] S32x224
  slices_S36x228_o3_1_S32x224 : S36x228.Slices ![3, 1] S32x224
  slices_S36x228_o3_2_S32x224 : S36x228.Slices ![3, 2] S32x224
  slices_S36x228_o3_3_S32x224 : S36x228.Slices ![3, 3] S32x224
  slices_S36x228_o3_4_S32x224 : S36x228.Slices ![3, 4] S32x224
  slices_S36x228_o4_0_S32x224 : S36x228.Slices ![4, 0] S32x224
  slices_S36x228_o4_1_S32x224 : S36x228.Slices ![4, 1] S32x224
  slices_S36x228_o4_2_S32x224 : S36x228.Slices ![4, 2] S32x224
  slices_S36x228_o4_3_S32x224 : S36x228.Slices ![4, 3] S32x224
  slices_S36x228_o4_4_S32x224 : S36x228.Slices ![4, 4] S32x224
  slices_S3x36x228_o0_0_0_S3x32x224 : S3x36x228.Slices ![0, 0, 0] S3x32x224
  slices_S3x36x228_o0_0_1_S3x32x224 : S3x36x228.Slices ![0, 0, 1] S3x32x224
  slices_S3x36x228_o0_0_2_S3x32x224 : S3x36x228.Slices ![0, 0, 2] S3x32x224
  slices_S3x36x228_o0_0_3_S3x32x224 : S3x36x228.Slices ![0, 0, 3] S3x32x224
  slices_S3x36x228_o0_0_4_S3x32x224 : S3x36x228.Slices ![0, 0, 4] S3x32x224
  slices_S3x36x228_o0_1_0_S3x32x224 : S3x36x228.Slices ![0, 1, 0] S3x32x224
  slices_S3x36x228_o0_1_1_S3x32x224 : S3x36x228.Slices ![0, 1, 1] S3x32x224
  slices_S3x36x228_o0_1_2_S3x32x224 : S3x36x228.Slices ![0, 1, 2] S3x32x224
  slices_S3x36x228_o0_1_3_S3x32x224 : S3x36x228.Slices ![0, 1, 3] S3x32x224
  slices_S3x36x228_o0_1_4_S3x32x224 : S3x36x228.Slices ![0, 1, 4] S3x32x224
  slices_S3x36x228_o0_2_0_S3x32x224 : S3x36x228.Slices ![0, 2, 0] S3x32x224
  slices_S3x36x228_o0_2_1_S3x32x224 : S3x36x228.Slices ![0, 2, 1] S3x32x224
  slices_S3x36x228_o0_2_2_S3x32x224 : S3x36x228.Slices ![0, 2, 2] S3x32x224
  slices_S3x36x228_o0_2_3_S3x32x224 : S3x36x228.Slices ![0, 2, 3] S3x32x224
  slices_S3x36x228_o0_2_4_S3x32x224 : S3x36x228.Slices ![0, 2, 4] S3x32x224
  slices_S3x36x228_o0_3_0_S3x32x224 : S3x36x228.Slices ![0, 3, 0] S3x32x224
  slices_S3x36x228_o0_3_1_S3x32x224 : S3x36x228.Slices ![0, 3, 1] S3x32x224
  slices_S3x36x228_o0_3_2_S3x32x224 : S3x36x228.Slices ![0, 3, 2] S3x32x224
  slices_S3x36x228_o0_3_3_S3x32x224 : S3x36x228.Slices ![0, 3, 3] S3x32x224
  slices_S3x36x228_o0_3_4_S3x32x224 : S3x36x228.Slices ![0, 3, 4] S3x32x224
  slices_S3x36x228_o0_4_0_S3x32x224 : S3x36x228.Slices ![0, 4, 0] S3x32x224
  slices_S3x36x228_o0_4_1_S3x32x224 : S3x36x228.Slices ![0, 4, 1] S3x32x224
  slices_S3x36x228_o0_4_2_S3x32x224 : S3x36x228.Slices ![0, 4, 2] S3x32x224
  slices_S3x36x228_o0_4_3_S3x32x224 : S3x36x228.Slices ![0, 4, 3] S3x32x224
  slices_S3x36x228_o0_4_4_S3x32x224 : S3x36x228.Slices ![0, 4, 4] S3x32x224
  shapeCasts_S3x32x224_S3x1x32x224 : S3x32x224.ShapeCasts S3x1x32x224
  concatenates_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x25x32x224_d1 : Shape.Concatenates [S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224, S3x1x32x224] S3x25x32x224 1
  shapeCasts_S3x25x32x224_S75x32x224 : S3x25x32x224.ShapeCasts S75x32x224
  inb_S64x75_S64x75_0_0 : ∀ a, (![0, 0] : Fin 2 → Nat) a + S64x75.size a ≤ S64x75.size a
  h_S64x75 : 0 < S64x75.numel
  reduces_S64x75_S64 : S64x75.Reduces [1] S64
  bitsLt_bf16_f32 : FTy.bits .bf16 < FTy.bits .f32
  slices_S75x32x224_o0_0_0_S75x1x224 : S75x32x224.Slices ![0, 0, 0] S75x1x224
  shapeCasts_S75x1x224_S75x224 : S75x1x224.ShapeCasts S75x224
  shapeCasts_S64_S64x1 : S64.ShapeCasts S64x1
  slices_S32x224_o0_0_S1x224 : S32x224.Slices ![0, 0] S1x224
  broadcasts_S64x1_S64x224 : S64x1.Broadcasts S64x224
  broadcasts_S1x224_S64x224 : S1x224.Broadcasts S64x224
  inb_S1x64x32x224_S1x64x1x224_0_0_0_0 : ∀ a, (![0, 0, 0, 0] : Fin 4 → Nat) a + S1x64x1x224.size a ≤ S1x64x32x224.size a
  h_S1x64x1x224 : 0 < S1x64x1x224.numel
  shapeCasts_S1x64x1x224_S64x224 : S1x64x1x224.ShapeCasts S64x224
  shapeCasts_S64x224_S1x64x1x224 : S64x224.ShapeCasts S1x64x1x224
  slices_S75x32x224_o0_1_0_S75x1x224 : S75x32x224.Slices ![0, 1, 0] S75x1x224
  slices_S32x224_o1_0_S1x224 : S32x224.Slices ![1, 0] S1x224
  inb_S1x64x32x224_S1x64x1x224_0_0_1_0 : ∀ a, (![0, 0, 1, 0] : Fin 4 → Nat) a + S1x64x1x224.size a ≤ S1x64x32x224.size a
  slices_S75x32x224_o0_2_0_S75x1x224 : S75x32x224.Slices ![0, 2, 0] S75x1x224
  slices_S32x224_o2_0_S1x224 : S32x224.Slices ![2, 0] S1x224
  inb_S1x64x32x224_S1x64x1x224_0_0_2_0 : ∀ a, (![0, 0, 2, 0] : Fin 4 → Nat) a + S1x64x1x224.size a ≤ S1x64x32x224.size a
  slices_S75x32x224_o0_3_0_S75x1x224 : S75x32x224.Slices ![0, 3, 0] S75x1x224
  slices_S32x224_o3_0_S1x224 : S32x224.Slices ![3, 0] S1x224
  inb_S1x64x32x224_S1x64x1x224_0_0_3_0 : ∀ a, (![0, 0, 3, 0] : Fin 4 → Nat) a + S1x64x1x224.size a ≤ S1x64x32x224.size a
  slices_S75x32x224_o0_4_0_S75x1x224 : S75x32x224.Slices ![0, 4, 0] S75x1x224
  slices_S32x224_o4_0_S1x224 : S32x224.Slices ![4, 0] S1x224
  inb_S1x64x32x224_S1x64x1x224_0_0_4_0 : ∀ a, (![0, 0, 4, 0] : Fin 4 → Nat) a + S1x64x1x224.size a ≤ S1x64x32x224.size a
  slices_S75x32x224_o0_5_0_S75x1x224 : S75x32x224.Slices ![0, 5, 0] S75x1x224
  slices_S32x224_o5_0_S1x224 : S32x224.Slices ![5, 0] S1x224
  inb_S1x64x32x224_S1x64x1x224_0_0_5_0 : ∀ a, (![0, 0, 5, 0] : Fin 4 → Nat) a + S1x64x1x224.size a ≤ S1x64x32x224.size a
  slices_S75x32x224_o0_6_0_S75x1x224 : S75x32x224.Slices ![0, 6, 0] S75x1x224
  slices_S32x224_o6_0_S1x224 : S32x224.Slices ![6, 0] S1x224
  inb_S1x64x32x224_S1x64x1x224_0_0_6_0 : ∀ a, (![0, 0, 6, 0] : Fin 4 → Nat) a + S1x64x1x224.size a ≤ S1x64x32x224.size a
  slices_S75x32x224_o0_7_0_S75x1x224 : S75x32x224.Slices ![0, 7, 0] S75x1x224
  slices_S32x224_o7_0_S1x224 : S32x224.Slices ![7, 0] S1x224
  inb_S1x64x32x224_S1x64x1x224_0_0_7_0 : ∀ a, (![0, 0, 7, 0] : Fin 4 → Nat) a + S1x64x1x224.size a ≤ S1x64x32x224.size a
  slices_S75x32x224_o0_8_0_S75x1x224 : S75x32x224.Slices ![0, 8, 0] S75x1x224
  slices_S32x224_o8_0_S1x224 : S32x224.Slices ![8, 0] S1x224
  inb_S1x64x32x224_S1x64x1x224_0_0_8_0 : ∀ a, (![0, 0, 8, 0] : Fin 4 → Nat) a + S1x64x1x224.size a ≤ S1x64x32x224.size a
  slices_S75x32x224_o0_9_0_S75x1x224 : S75x32x224.Slices ![0, 9, 0] S75x1x224
  slices_S32x224_o9_0_S1x224 : S32x224.Slices ![9, 0] S1x224
  inb_S1x64x32x224_S1x64x1x224_0_0_9_0 : ∀ a, (![0, 0, 9, 0] : Fin 4 → Nat) a + S1x64x1x224.size a ≤ S1x64x32x224.size a
  slices_S75x32x224_o0_10_0_S75x1x224 : S75x32x224.Slices ![0, 10, 0] S75x1x224
  slices_S32x224_o10_0_S1x224 : S32x224.Slices ![10, 0] S1x224
  inb_S1x64x32x224_S1x64x1x224_0_0_10_0 : ∀ a, (![0, 0, 10, 0] : Fin 4 → Nat) a + S1x64x1x224.size a ≤ S1x64x32x224.size a
  slices_S75x32x224_o0_11_0_S75x1x224 : S75x32x224.Slices ![0, 11, 0] S75x1x224
  slices_S32x224_o11_0_S1x224 : S32x224.Slices ![11, 0] S1x224
  inb_S1x64x32x224_S1x64x1x224_0_0_11_0 : ∀ a, (![0, 0, 11, 0] : Fin 4 → Nat) a + S1x64x1x224.size a ≤ S1x64x32x224.size a
  slices_S75x32x224_o0_12_0_S75x1x224 : S75x32x224.Slices ![0, 12, 0] S75x1x224
  slices_S32x224_o12_0_S1x224 : S32x224.Slices ![12, 0] S1x224
  inb_S1x64x32x224_S1x64x1x224_0_0_12_0 : ∀ a, (![0, 0, 12, 0] : Fin 4 → Nat) a + S1x64x1x224.size a ≤ S1x64x32x224.size a
  slices_S75x32x224_o0_13_0_S75x1x224 : S75x32x224.Slices ![0, 13, 0] S75x1x224
  slices_S32x224_o13_0_S1x224 : S32x224.Slices ![13, 0] S1x224
  inb_S1x64x32x224_S1x64x1x224_0_0_13_0 : ∀ a, (![0, 0, 13, 0] : Fin 4 → Nat) a + S1x64x1x224.size a ≤ S1x64x32x224.size a
  slices_S75x32x224_o0_14_0_S75x1x224 : S75x32x224.Slices ![0, 14, 0] S75x1x224
  slices_S32x224_o14_0_S1x224 : S32x224.Slices ![14, 0] S1x224
  inb_S1x64x32x224_S1x64x1x224_0_0_14_0 : ∀ a, (![0, 0, 14, 0] : Fin 4 → Nat) a + S1x64x1x224.size a ≤ S1x64x32x224.size a
  slices_S75x32x224_o0_15_0_S75x1x224 : S75x32x224.Slices ![0, 15, 0] S75x1x224
  slices_S32x224_o15_0_S1x224 : S32x224.Slices ![15, 0] S1x224
  inb_S1x64x32x224_S1x64x1x224_0_0_15_0 : ∀ a, (![0, 0, 15, 0] : Fin 4 → Nat) a + S1x64x1x224.size a ≤ S1x64x32x224.size a
  slices_S75x32x224_o0_16_0_S75x1x224 : S75x32x224.Slices ![0, 16, 0] S75x1x224
  slices_S32x224_o16_0_S1x224 : S32x224.Slices ![16, 0] S1x224
  inb_S1x64x32x224_S1x64x1x224_0_0_16_0 : ∀ a, (![0, 0, 16, 0] : Fin 4 → Nat) a + S1x64x1x224.size a ≤ S1x64x32x224.size a
  slices_S75x32x224_o0_17_0_S75x1x224 : S75x32x224.Slices ![0, 17, 0] S75x1x224
  slices_S32x224_o17_0_S1x224 : S32x224.Slices ![17, 0] S1x224
  inb_S1x64x32x224_S1x64x1x224_0_0_17_0 : ∀ a, (![0, 0, 17, 0] : Fin 4 → Nat) a + S1x64x1x224.size a ≤ S1x64x32x224.size a
  slices_S75x32x224_o0_18_0_S75x1x224 : S75x32x224.Slices ![0, 18, 0] S75x1x224
  slices_S32x224_o18_0_S1x224 : S32x224.Slices ![18, 0] S1x224
  inb_S1x64x32x224_S1x64x1x224_0_0_18_0 : ∀ a, (![0, 0, 18, 0] : Fin 4 → Nat) a + S1x64x1x224.size a ≤ S1x64x32x224.size a
  slices_S75x32x224_o0_19_0_S75x1x224 : S75x32x224.Slices ![0, 19, 0] S75x1x224
  slices_S32x224_o19_0_S1x224 : S32x224.Slices ![19, 0] S1x224
  inb_S1x64x32x224_S1x64x1x224_0_0_19_0 : ∀ a, (![0, 0, 19, 0] : Fin 4 → Nat) a + S1x64x1x224.size a ≤ S1x64x32x224.size a
  slices_S75x32x224_o0_20_0_S75x1x224 : S75x32x224.Slices ![0, 20, 0] S75x1x224
  slices_S32x224_o20_0_S1x224 : S32x224.Slices ![20, 0] S1x224
  inb_S1x64x32x224_S1x64x1x224_0_0_20_0 : ∀ a, (![0, 0, 20, 0] : Fin 4 → Nat) a + S1x64x1x224.size a ≤ S1x64x32x224.size a
  slices_S75x32x224_o0_21_0_S75x1x224 : S75x32x224.Slices ![0, 21, 0] S75x1x224
  slices_S32x224_o21_0_S1x224 : S32x224.Slices ![21, 0] S1x224
  inb_S1x64x32x224_S1x64x1x224_0_0_21_0 : ∀ a, (![0, 0, 21, 0] : Fin 4 → Nat) a + S1x64x1x224.size a ≤ S1x64x32x224.size a
  slices_S75x32x224_o0_22_0_S75x1x224 : S75x32x224.Slices ![0, 22, 0] S75x1x224
  slices_S32x224_o22_0_S1x224 : S32x224.Slices ![22, 0] S1x224
  inb_S1x64x32x224_S1x64x1x224_0_0_22_0 : ∀ a, (![0, 0, 22, 0] : Fin 4 → Nat) a + S1x64x1x224.size a ≤ S1x64x32x224.size a
  slices_S75x32x224_o0_23_0_S75x1x224 : S75x32x224.Slices ![0, 23, 0] S75x1x224
  slices_S32x224_o23_0_S1x224 : S32x224.Slices ![23, 0] S1x224
  inb_S1x64x32x224_S1x64x1x224_0_0_23_0 : ∀ a, (![0, 0, 23, 0] : Fin 4 → Nat) a + S1x64x1x224.size a ≤ S1x64x32x224.size a
  slices_S75x32x224_o0_24_0_S75x1x224 : S75x32x224.Slices ![0, 24, 0] S75x1x224
  slices_S32x224_o24_0_S1x224 : S32x224.Slices ![24, 0] S1x224
  inb_S1x64x32x224_S1x64x1x224_0_0_24_0 : ∀ a, (![0, 0, 24, 0] : Fin 4 → Nat) a + S1x64x1x224.size a ≤ S1x64x32x224.size a
  slices_S75x32x224_o0_25_0_S75x1x224 : S75x32x224.Slices ![0, 25, 0] S75x1x224
  slices_S32x224_o25_0_S1x224 : S32x224.Slices ![25, 0] S1x224
  inb_S1x64x32x224_S1x64x1x224_0_0_25_0 : ∀ a, (![0, 0, 25, 0] : Fin 4 → Nat) a + S1x64x1x224.size a ≤ S1x64x32x224.size a
  slices_S75x32x224_o0_26_0_S75x1x224 : S75x32x224.Slices ![0, 26, 0] S75x1x224
  slices_S32x224_o26_0_S1x224 : S32x224.Slices ![26, 0] S1x224
  inb_S1x64x32x224_S1x64x1x224_0_0_26_0 : ∀ a, (![0, 0, 26, 0] : Fin 4 → Nat) a + S1x64x1x224.size a ≤ S1x64x32x224.size a
  slices_S75x32x224_o0_27_0_S75x1x224 : S75x32x224.Slices ![0, 27, 0] S75x1x224
  slices_S32x224_o27_0_S1x224 : S32x224.Slices ![27, 0] S1x224
  inb_S1x64x32x224_S1x64x1x224_0_0_27_0 : ∀ a, (![0, 0, 27, 0] : Fin 4 → Nat) a + S1x64x1x224.size a ≤ S1x64x32x224.size a
  slices_S75x32x224_o0_28_0_S75x1x224 : S75x32x224.Slices ![0, 28, 0] S75x1x224
  slices_S32x224_o28_0_S1x224 : S32x224.Slices ![28, 0] S1x224
  inb_S1x64x32x224_S1x64x1x224_0_0_28_0 : ∀ a, (![0, 0, 28, 0] : Fin 4 → Nat) a + S1x64x1x224.size a ≤ S1x64x32x224.size a
  slices_S75x32x224_o0_29_0_S75x1x224 : S75x32x224.Slices ![0, 29, 0] S75x1x224
  slices_S32x224_o29_0_S1x224 : S32x224.Slices ![29, 0] S1x224
  inb_S1x64x32x224_S1x64x1x224_0_0_29_0 : ∀ a, (![0, 0, 29, 0] : Fin 4 → Nat) a + S1x64x1x224.size a ≤ S1x64x32x224.size a
  slices_S75x32x224_o0_30_0_S75x1x224 : S75x32x224.Slices ![0, 30, 0] S75x1x224
  slices_S32x224_o30_0_S1x224 : S32x224.Slices ![30, 0] S1x224
  inb_S1x64x32x224_S1x64x1x224_0_0_30_0 : ∀ a, (![0, 0, 30, 0] : Fin 4 → Nat) a + S1x64x1x224.size a ≤ S1x64x32x224.size a
  slices_S75x32x224_o0_31_0_S75x1x224 : S75x32x224.Slices ![0, 31, 0] S75x1x224
  slices_S32x224_o31_0_S1x224 : S32x224.Slices ![31, 0] S1x224
  inb_S1x64x32x224_S1x64x1x224_0_0_31_0 : ∀ a, (![0, 0, 31, 0] : Fin 4 → Nat) a + S1x64x1x224.size a ≤ S1x64x32x224.size a
  dot_S64x75_S75x224_S64x224_1_0_0_1_n_n_wf : DotDims.WF S64x75 S75x224 S64x224 [1] [0] [0] [1] [] []
  hrank0 : 0 < grid0.rank
  k0_mult1_dvd : ∀ i : grid0.Coords, 32 ∣ (k0_mult1 i).toNat
  k0_off1_inb : ∀ i : grid0.Coords, ∀ a, (k0_off1 i) a + S1x3x36x228.size a ≤ S1x3x228x228.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x228x228.size a ≤ S32x3x228x228.size a
  hwx0_0 : ∀ i : grid0.Coords, EltTy.bits .f32 = 32 ∨ (Rect.block (s := S32x3x228x228) S1x3x228x228.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x75.size a ≤ S64x75.size a
  hwx0_1 : ∀ i : grid0.Coords, EltTy.bits .f32 = 32 ∨ (Rect.block (s := S64x75) S64x75.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x32x224.size a ≤ S32x64x224x224.size a
  hwx0_2 : ∀ i : grid0.Coords, EltTy.bits .f32 = 32 ∨ (Rect.block (s := S32x64x224x224) S1x64x32x224.size (cc0_transform_2 i) (hinb0_2 i)).WholeWords (EltTy.packing .f32)

variable [Facts₀]

def dot_S64x75_S75x224_S64x224_1_0_0_1_n_n : DotDims S64x75 S75x224 S64x224 where
  lhsContracting := [1]
  rhsContracting := [0]
  lhsNonContracting := [0]
  rhsNonContracting := [1]
  lhsBatch := []
  rhsBatch := []
  wf := dot_S64x75_S75x224_S64x224_1_0_0_1_n_n_wf

abbrev win0_0 : Pipeline.Window sig grid0 :=
  Pipeline.Window.ofSpec (Memref.whole main_v0) S1x3x228x228.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x75.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64x32x224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x224x224 : Shape := ⟨4, ![32, 3, 224, 224]⟩
abbrev S64x75 : Shape := ⟨2, ![64, 75]⟩
abbrev S_ : Shape := ⟨0, ![]⟩
abbrev S32x3x228x228 : Shape := ⟨4, ![32, 3, 228, 228]⟩
abbrev S32x3x1x224x224 : Shape := ⟨5, ![32, 3, 1, 224, 224]⟩
abbrev S32x3x16x224x224 : Shape := ⟨5, ![32, 3, 16, 224, 224]⟩
abbrev S32x3x9x224x224 : Shape := ⟨5, ![32, 3, 9, 224, 224]⟩
abbrev S32x3x25x224x224 : Shape := ⟨5, ![32, 3, 25, 224, 224]⟩
abbrev S32x75x50176 : Shape := ⟨3, ![32, 75, 50176]⟩
abbrev S32x50176x75 : Shape := ⟨3, ![32, 50176, 75]⟩
abbrev S32x50176 : Shape := ⟨2, ![32, 50176]⟩
abbrev S64 : Shape := ⟨1, ![64]⟩
abbrev S32x50176x64 : Shape := ⟨3, ![32, 50176, 64]⟩
abbrev S32x50176x1 : Shape := ⟨3, ![32, 50176, 1]⟩
abbrev S1x1x64 : Shape := ⟨3, ![1, 1, 64]⟩
abbrev S32x64x50176 : Shape := ⟨3, ![32, 64, 50176]⟩
abbrev S32x64x224x224 : Shape := ⟨4, ![32, 64, 224, 224]⟩

abbrev nBuf : Space → Nat
  | .hbm => 82
  | .vmem => 0
  | .smem => 0
  | _ => 0

abbrev bufTy : (tb : Table) → Fin (tcTables nBuf tb) → BufTy
  | .hbm, ⟨0, _⟩ => ⟨S32x3x224x224, .f32⟩
  | .hbm, ⟨1, _⟩ => ⟨S64x75, .f32⟩
  | .hbm, ⟨2, _⟩ => ⟨S_, .i32⟩
  | .hbm, ⟨3, _⟩ => ⟨S_, .f32⟩
  | .hbm, ⟨4, _⟩ => ⟨S32x3x228x228, .f32⟩
  | .hbm, ⟨5, _⟩ => ⟨S32x3x224x224, .f32⟩
  | .hbm, ⟨6, _⟩ => ⟨S32x3x224x224, .f32⟩
  | .hbm, ⟨7, _⟩ => ⟨S32x3x224x224, .f32⟩
  | .hbm, ⟨8, _⟩ => ⟨S32x3x224x224, .f32⟩
  | .hbm, ⟨9, _⟩ => ⟨S32x3x224x224, .f32⟩
  | .hbm, ⟨10, _⟩ => ⟨S32x3x224x224, .f32⟩
  | .hbm, ⟨11, _⟩ => ⟨S32x3x224x224, .f32⟩
  | .hbm, ⟨12, _⟩ => ⟨S32x3x224x224, .f32⟩
  | .hbm, ⟨13, _⟩ => ⟨S32x3x224x224, .f32⟩
  | .hbm, ⟨14, _⟩ => ⟨S32x3x224x224, .f32⟩
  | .hbm, ⟨15, _⟩ => ⟨S32x3x224x224, .f32⟩
  | .hbm, ⟨16, _⟩ => ⟨S32x3x224x224, .f32⟩
  | .hbm, ⟨17, _⟩ => ⟨S32x3x224x224, .f32⟩
  | .hbm, ⟨18, _⟩ => ⟨S32x3x224x224, .f32⟩
  | .hbm, ⟨19, _⟩ => ⟨S32x3x224x224, .f32⟩
  | .hbm, ⟨20, _⟩ => ⟨S32x3x224x224, .f32⟩
  | .hbm, ⟨21, _⟩ => ⟨S32x3x224x224, .f32⟩
  | .hbm, ⟨22, _⟩ => ⟨S32x3x224x224, .f32⟩
  | .hbm, ⟨23, _⟩ => ⟨S32x3x224x224, .f32⟩
  | .hbm, ⟨24, _⟩ => ⟨S32x3x224x224, .f32⟩
  | .hbm, ⟨25, _⟩ => ⟨S32x3x224x224, .f32⟩
  | .hbm, ⟨26, _⟩ => ⟨S32x3x224x224, .f32⟩
  | .hbm, ⟨27, _⟩ => ⟨S32x3x224x224, .f32⟩
  | .hbm, ⟨28, _⟩ => ⟨S32x3x224x224, .f32⟩
  | .hbm, ⟨29, _⟩ => ⟨S32x3x224x224, .f32⟩
  | .hbm, ⟨30, _⟩ => ⟨S32x3x1x224x224, .f32⟩
  | .hbm, ⟨31, _⟩ => ⟨S32x3x1x224x224, .f32⟩
  | .hbm, ⟨32, _⟩ => ⟨S32x3x1x224x224, .f32⟩
  | .hbm, ⟨33, _⟩ => ⟨S32x3x1x224x224, .f32⟩
  | .hbm, ⟨34, _⟩ => ⟨S32x3x1x224x224, .f32⟩
  | .hbm, ⟨35, _⟩ => ⟨S32x3x1x224x224, .f32⟩
  | .hbm, ⟨36, _⟩ => ⟨S32x3x1x224x224, .f32⟩
  | .hbm, ⟨37, _⟩ => ⟨S32x3x1x224x224, .f32⟩
  | .hbm, ⟨38, _⟩ => ⟨S32x3x1x224x224, .f32⟩
  | .hbm, ⟨39, _⟩ => ⟨S32x3x1x224x224, .f32⟩
  | .hbm, ⟨40, _⟩ => ⟨S32x3x1x224x224, .f32⟩
  | .hbm, ⟨41, _⟩ => ⟨S32x3x1x224x224, .f32⟩
  | .hbm, ⟨42, _⟩ => ⟨S32x3x1x224x224, .f32⟩
  | .hbm, ⟨43, _⟩ => ⟨S32x3x1x224x224, .f32⟩
  | .hbm, ⟨44, _⟩ => ⟨S32x3x1x224x224, .f32⟩
  | .hbm, ⟨45, _⟩ => ⟨S32x3x1x224x224, .f32⟩
  | .hbm, ⟨46, _⟩ => ⟨S32x3x1x224x224, .f32⟩
  | .hbm, ⟨47, _⟩ => ⟨S32x3x1x224x224, .f32⟩
  | .hbm, ⟨48, _⟩ => ⟨S32x3x1x224x224, .f32⟩
  | .hbm, ⟨49, _⟩ => ⟨S32x3x1x224x224, .f32⟩
  | .hbm, ⟨50, _⟩ => ⟨S32x3x1x224x224, .f32⟩
  | .hbm, ⟨51, _⟩ => ⟨S32x3x1x224x224, .f32⟩
  | .hbm, ⟨52, _⟩ => ⟨S32x3x1x224x224, .f32⟩
  | .hbm, ⟨53, _⟩ => ⟨S32x3x1x224x224, .f32⟩
  | .hbm, ⟨54, _⟩ => ⟨S32x3x1x224x224, .f32⟩
  | .hbm, ⟨55, _⟩ => ⟨S32x3x16x224x224, .f32⟩
  | .hbm, ⟨56, _⟩ => ⟨S32x3x9x224x224, .f32⟩
  | .hbm, ⟨57, _⟩ => ⟨S32x3x25x224x224, .f32⟩
  | .hbm, ⟨58, _⟩ => ⟨S32x75x50176, .f32⟩
  | .hbm, ⟨59, _⟩ => ⟨S32x50176x75, .f32⟩
  | .hbm, ⟨60, _⟩ => ⟨S32x50176x75, .f32⟩
  | .hbm, ⟨61, _⟩ => ⟨S_, .f32⟩
  | .hbm, ⟨62, _⟩ => ⟨S32x50176, .f32⟩
  | .hbm, ⟨63, _⟩ => ⟨S64x75, .f32⟩
  | .hbm, ⟨64, _⟩ => ⟨S_, .f32⟩
  | .hbm, ⟨65, _⟩ => ⟨S64, .f32⟩
  | .hbm, ⟨66, _⟩ => ⟨S32x50176x64, .f32⟩
  | .hbm, ⟨67, _⟩ => ⟨S32x50176x1, .f32⟩
  | .hbm, ⟨68, _⟩ => ⟨S1x1x64, .f32⟩
  | .hbm, ⟨69, _⟩ => ⟨S32x50176x64, .f32⟩
  | .hbm, ⟨70, _⟩ => ⟨S32x50176x64, .f32⟩
  | .hbm, ⟨71, _⟩ => ⟨S32x50176x64, .f32⟩
  | .hbm, ⟨72, _⟩ => ⟨S_, .f32⟩
  | .hbm, ⟨73, _⟩ => ⟨S32x50176x64, .f32⟩
  | .hbm, ⟨74, _⟩ => ⟨S32x50176x64, .f32⟩
  | .hbm, ⟨75, _⟩ => ⟨S32x50176x64, .f32⟩
  | .hbm, ⟨76, _⟩ => ⟨S_, .f32⟩
  | .hbm, ⟨77, _⟩ => ⟨S32x50176x64, .f32⟩
  | .hbm, ⟨78, _⟩ => ⟨S32x50176x64, .f32⟩
  | .hbm, ⟨79, _⟩ => ⟨S32x50176x64, .f32⟩
  | .hbm, ⟨80, _⟩ => ⟨S32x64x50176, .f32⟩
  | .hbm, ⟨81, _⟩ => ⟨S32x64x224x224, .f32⟩
  | _, _ => ⟨S32x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_cst : Ref sig .tc := ⟨.hbm, 61, rfl⟩
abbrev main_v57 : Ref sig .tc := ⟨.hbm, 62, rfl⟩
abbrev main_v58 : Ref sig .tc := ⟨.hbm, 63, rfl⟩
abbrev main_cst_0 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_cst_1 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_cst_2 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩

abbrev nD : Nat := 1
abbrev τ : Topo := Topo.v7x

variable {F : FTy → Type} [FloatOps F]

class Facts₀ : Prop where
  pads_S32x3x224x224_S32x3x228x228_000_000_220_220 : S32x3x224x224.Pads (![0, 0, 2, 2] : Fin 4 → Nat) ![0, 0, 2, 2] ![0, 0, 0, 0] S32x3x228x228
  h_S_ : 0 < S_.numel
  slices_S32x3x228x228_S32x3x224x224_0_0_0_0 : S32x3x228x228.Slices ![0, 0, 0, 0] S32x3x224x224
  slices_S32x3x228x228_S32x3x224x224_0_0_0_1 : S32x3x228x228.Slices ![0, 0, 0, 1] S32x3x224x224
  slices_S32x3x228x228_S32x3x224x224_0_0_0_2 : S32x3x228x228.Slices ![0, 0, 0, 2] S32x3x224x224
  slices_S32x3x228x228_S32x3x224x224_0_0_0_3 : S32x3x228x228.Slices ![0, 0, 0, 3] S32x3x224x224
  slices_S32x3x228x228_S32x3x224x224_0_0_0_4 : S32x3x228x228.Slices ![0, 0, 0, 4] S32x3x224x224
  slices_S32x3x228x228_S32x3x224x224_0_0_1_0 : S32x3x228x228.Slices ![0, 0, 1, 0] S32x3x224x224
  slices_S32x3x228x228_S32x3x224x224_0_0_1_1 : S32x3x228x228.Slices ![0, 0, 1, 1] S32x3x224x224
  slices_S32x3x228x228_S32x3x224x224_0_0_1_2 : S32x3x228x228.Slices ![0, 0, 1, 2] S32x3x224x224
  slices_S32x3x228x228_S32x3x224x224_0_0_1_3 : S32x3x228x228.Slices ![0, 0, 1, 3] S32x3x224x224
  slices_S32x3x228x228_S32x3x224x224_0_0_1_4 : S32x3x228x228.Slices ![0, 0, 1, 4] S32x3x224x224
  slices_S32x3x228x228_S32x3x224x224_0_0_2_0 : S32x3x228x228.Slices ![0, 0, 2, 0] S32x3x224x224
  slices_S32x3x228x228_S32x3x224x224_0_0_2_1 : S32x3x228x228.Slices ![0, 0, 2, 1] S32x3x224x224
  slices_S32x3x228x228_S32x3x224x224_0_0_2_2 : S32x3x228x228.Slices ![0, 0, 2, 2] S32x3x224x224
  slices_S32x3x228x228_S32x3x224x224_0_0_2_3 : S32x3x228x228.Slices ![0, 0, 2, 3] S32x3x224x224
  slices_S32x3x228x228_S32x3x224x224_0_0_2_4 : S32x3x228x228.Slices ![0, 0, 2, 4] S32x3x224x224
  slices_S32x3x228x228_S32x3x224x224_0_0_3_0 : S32x3x228x228.Slices ![0, 0, 3, 0] S32x3x224x224
  slices_S32x3x228x228_S32x3x224x224_0_0_3_1 : S32x3x228x228.Slices ![0, 0, 3, 1] S32x3x224x224
  slices_S32x3x228x228_S32x3x224x224_0_0_3_2 : S32x3x228x228.Slices ![0, 0, 3, 2] S32x3x224x224
  slices_S32x3x228x228_S32x3x224x224_0_0_3_3 : S32x3x228x228.Slices ![0, 0, 3, 3] S32x3x224x224
  slices_S32x3x228x228_S32x3x224x224_0_0_3_4 : S32x3x228x228.Slices ![0, 0, 3, 4] S32x3x224x224
  slices_S32x3x228x228_S32x3x224x224_0_0_4_0 : S32x3x228x228.Slices ![0, 0, 4, 0] S32x3x224x224
  slices_S32x3x228x228_S32x3x224x224_0_0_4_1 : S32x3x228x228.Slices ![0, 0, 4, 1] S32x3x224x224
  slices_S32x3x228x228_S32x3x224x224_0_0_4_2 : S32x3x228x228.Slices ![0, 0, 4, 2] S32x3x224x224
  slices_S32x3x228x228_S32x3x224x224_0_0_4_3 : S32x3x228x228.Slices ![0, 0, 4, 3] S32x3x224x224
  slices_S32x3x228x228_S32x3x224x224_0_0_4_4 : S32x3x228x228.Slices ![0, 0, 4, 4] S32x3x224x224
  bcast_S32x3x224x224_S32x3x1x224x224_0_1_3_4 : S32x3x224x224.BroadcastsInDim S32x3x1x224x224 (![0, 1, 3, 4] : Fin 4 → Fin S32x3x1x224x224.rank)
  concatenates_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x16x224x224_d2 : Shape.Concatenates [S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224, S32x3x1x224x224] S32x3x16x224x224 2
  concatenates_S32x3x1x224x224_S32x3x1x224x224_S32x3x1x224x224_S32x3x1x224x224_S32x3x1x224x224_S32x3x1x224x224_S32x3x1x224x224_S32x3x1x224x224_S32x3x1x224x224_S32x3x9x224x224_d2 : Shape.Concatenates [S32x3x1x224x224, S32x3x1x224x224, S32x3x1x224x224, S32x3x1x224x224, S32x3x1x224x224, S32x3x1x224x224, S32x3x1x224x224, S32x3x1x224x224, S32x3x1x224x224] S32x3x9x224x224 2
  concatenates_S32x3x16x224x224_S32x3x9x224x224_S32x3x25x224x224_d2 : Shape.Concatenates [S32x3x16x224x224, S32x3x9x224x224] S32x3x25x224x224 2
  shapeCasts_S32x3x25x224x224_S32x75x50176 : S32x3x25x224x224.ShapeCasts S32x75x50176
  transposes_S32x75x50176_S32x50176x75_0_2_1 : S32x75x50176.Transposes [0, 2, 1] S32x50176x75
  reducesTo_S32x50176x75_S32x50176_d2 : S32x50176x75.ReducesTo [2] S32x50176
  reducesTo_S64x75_S64_d1 : S64x75.ReducesTo [1] S64
  bcast_S32x50176_S32x50176x1_0_1 : S32x50176.BroadcastsInDim S32x50176x1 (![0, 1] : Fin 2 → Fin S32x50176x1.rank)
  bcast_S64_S1x1x64_2 : S64.BroadcastsInDim S1x1x64 (![2] : Fin 1 → Fin S1x1x64.rank)
  bcast_S32x50176x1_S32x50176x64_0_1_2 : S32x50176x1.BroadcastsInDim S32x50176x64 (![0, 1, 2] : Fin 3 → Fin S32x50176x64.rank)
  bcast_S1x1x64_S32x50176x64_0_1_2 : S1x1x64.BroadcastsInDim S32x50176x64 (![0, 1, 2] : Fin 3 → Fin S32x50176x64.rank)
  bcast_S_S32x50176x64 : S_.BroadcastsInDim S32x50176x64 (![] : Fin 0 → Fin S32x50176x64.rank)
  transposes_S32x50176x64_S32x64x50176_0_2_1 : S32x50176x64.Transposes [0, 2, 1] S32x64x50176
  shapeCasts_S32x64x50176_S32x64x224x224 : S32x64x50176.ShapeCasts S32x64x224x224
  dot_S32x50176x75_S64x75_S32x50176x64_2_1_01_0_n_n_wf : DotDims.WF S32x50176x75 S64x75 S32x50176x64 [2] [1] [0, 1] [0] [] []

variable [Facts₀]

def dot_S32x50176x75_S64x75_S32x50176x64_2_1_01_0_n_n : DotDims S32x50176x75 S64x75 S32x50176x64 where
  lhsContracting := [2]
  rhsContracting := [1]
  lhsNonContracting := [0, 1]
  rhsNonContracting := [0]
  lhsBatch := []
  rhsBatch := []
  wf := dot_S32x50176x75_S64x75_S32x50176x64_2_1_01_0_n_n_wf

class Facts : Prop extends Facts₀ where

variable [Facts]
-- ==== Proof.LibColumn.lean ====
/-
  Small general lemmas: the keep-dimension column forms of a cast and a broadcast read at an index, and a lane
  maximum, a lane sum and the host's maximum-reduce over the columns of a rank-2 array read at a row.
-/
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.Lib

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A reduced row index with the column put back is the pair. -/
theorem lift_row {n m : ℕ} (h : (⟨2, ![n, m]⟩ : Shape).Reduces [1] (⟨1, ![n]⟩ : Shape)) (r : Fin n)
    (k : Fin ((⟨2, ![n, m]⟩ : Shape).size 1)) : h.lift (ix1 r) k = ix2 r (⟨k.val, k.isLt⟩ : Fin m) := by
  funext c; apply Fin.ext
  fin_cases c <;> rfl

/-- A lane maximum of an `[n, m]` vector at row `r` is the fold of `max` over that row. -/
theorem multiReduction_max_row {n m : ℕ} (z : FVec Ideal ⟨2, ![n, m]⟩ .f32)
    (h : (⟨2, ![n, m]⟩ : Shape).Reduces [1] (⟨1, ![n]⟩ : Shape)) (hφ : FKind.Formats .f32)
    (hacc : (0xFF800000#32 : BitVec 32) = 0xFF800000#32) (r : Fin n) :
    multiReduction .maximumf [1] ⟨1, ![n]⟩ z 0xFF800000#32 h hφ hacc (ix1 r)
      = (Finset.univ : Finset (Fin m)).fold max (Ideal.ofBits .f32 0xFF800000#32) fun j => z (ix2 r j) := by
  refine (Ideal.multiReduction_maximumf_single z 0xFF800000#32 h hφ hacc (ix1 r)).trans ?_
  have hf : (z ∘ h.lift (ix1 r)) = fun k : Fin m => z (ix2 r k) := funext fun k => congrArg z (lift_row h r k)
  exact congrArg (fun f => Finset.fold max (Ideal.ofBits .f32 0xFF800000#32) f (Finset.univ : Finset (Fin m))) hf

/-- A lane sum of an `[n, m]` vector at row `r` is the sum over that row. -/
theorem multiReduction_add_row {n m : ℕ} (z : FVec Ideal ⟨2, ![n, m]⟩ .f32)
    (h : (⟨2, ![n, m]⟩ : Shape).Reduces [1] (⟨1, ![n]⟩ : Shape)) (hφ : FKind.Formats .f32)
    (hacc : (0x00000000#32 : BitVec 32) = 0x00000000#32) (r : Fin n) :
    multiReduction .add [1] ⟨1, ![n]⟩ z 0x00000000#32 h hφ hacc (ix1 r) = ∑ j : Fin m, z (ix2 r j) := by
  refine (Ideal.multiReduction_add_single z 0x00000000#32 h hφ hacc (ix1 r)).trans ?_
  exact Finset.sum_congr rfl fun k _ => congrArg z (lift_row h r k)

/-- The host's reduce with a maximum body over the columns, at row `r`: the fold of `max` over that row from the initial value. -/
theorem hostReduce_max_row {n m : ℕ} (x : FVec Ideal ⟨2, ![n, m]⟩ .f32) (init : (⟨0, ![]⟩ : Shape).Idx → EReal)
    (h' : (⟨2, ![n, m]⟩ : Shape).ReducesTo [1] (⟨1, ![n]⟩ : Shape)) (h : (⟨2, ![n, m]⟩ : Shape).Reduces [1] (⟨1, ![n]⟩ : Shape))
    (hu : 0 < (⟨0, ![]⟩ : Shape).numel) (r : Fin n) :
    Host.reduce FloatOps.maximumf x init h' hu (ix1 r) = (Finset.univ : Finset (Fin m)).fold max (init ix0) fun j => x (ix2 r j) := by
  rw [Host.reduce_eq_fold_single FloatOps.maximumf x init h' h hu]
  have hf : (x ∘ h.lift (ix1 r)) = fun k : Fin m => x (ix2 r k) := funext fun k => congrArg x (lift_row h r k)
  have hi : init (Shape.Idx.first hu) = init ix0 := congrArg init (eq_ix0 _)
  rw [hi]
  exact congrArg (fun f => Finset.fold max (init ix0) f (Finset.univ : Finset (Fin m))) hf

/-- The logarithm and the exponential of a vector at an index are those of the element. -/
theorem log_apply {s : Shape} {φ : FTy} (x : FVec Ideal s φ) (i : s.Idx) : log x i = Ideal.log (x i) := rfl
theorem exp_apply {s : Shape} {φ : FTy} (x : FVec Ideal s φ) (i : s.Idx) : exp x i = Ideal.exp (x i) := rfl

end Cert.Lib

end
-- ==== Proof.WindowSum.lean ====
/-
  Two regroupings of finite sums on the extended reals, which are a commutative monoid under addition, so that
  neither needs the summands to be finite.

  * A chain of additions taken from the left, `((f 0 + f 1) + f 2) + … + f n`, is the sum of `f` over `0 … n`.
  * A sum over 75 indices `k` of a quantity that depends on `k` only through `k / 25` and `k % 25` is the double sum
    over the 25 remainders and the 3 quotients: the 75 window entries are 3 channels of 25 offsets.
-/
import Mathlib.Data.EReal.Basic
import Mathlib.Algebra.BigOperators.Fin
import Mathlib.Algebra.BigOperators.Group.Finset.Basic
import Mathlib.Logic.Equiv.Fin.Basic

namespace Cert.RbfSum

open Finset

/-- Additions chained from the left: `f 0`, then `+ f 1`, … , `+ f n`. -/
noncomputable def leftSum (f : ℕ → EReal) : ℕ → EReal
  | 0 => f 0
  | n + 1 => leftSum f n + f (n + 1)

/-- … is the sum over `0 … n`. -/
theorem leftSum_eq (f : ℕ → EReal) (n : ℕ) : leftSum f n = ∑ i : Fin (n + 1), f i.val := by
  induction n with
  | zero => simp [leftSum]
  | succ n ih =>
    rw [leftSum, ih, Fin.sum_univ_castSucc (n := n + 1)]
    rfl

/-- 75 = 3 × 25: summing over `k < 75` a function of `(k / 25, k % 25)` is summing over the 25 remainders and, inside, the
    3 quotients. -/
theorem sum_split (g : Fin 3 → Fin 25 → EReal) :
    ∑ k : Fin 75, g ⟨k.val / 25, by have := k.isLt; omega⟩ ⟨k.val % 25, Nat.mod_lt _ (by norm_num)⟩
      = ∑ n : Fin 25, ∑ c : Fin 3, g c n := by
  rw [Finset.sum_comm, ← Fintype.sum_prod_type' g]
  exact Fintype.sum_equiv ((finCongr (by norm_num : 75 = 3 * 25)).trans finProdFinEquiv.symm) _ _ (fun k => rfl)

end Cert.RbfSum
-- ==== Proof.KernelWindow.lean ====
/-
  What the kernel computes once per grid point, read at an index.

  At a grid point the body loads a slab `X : [1, 3, 36, 228]` of the padded image (36 rows: the 32 output rows of the
  tile and the 4 rows of halo below them) and the prototypes `W : [64, 75]`, and from them forms
    * the per-pixel sum over the 3 channels of the squares, `[36, 228]`;
    * the window norm map `[32, 224]`: the 25 shifted copies of that sum added up one after the other, from the left;
    * the window tensor `[75, 32, 224]`: the 25 shifted copies of the slab stacked per channel, entry `d` being channel
      `d / 25` shifted by `((d % 25) / 5, d % 5)`;
    * the prototype norms `[64]`: the sum over each row of the squares.
  A shift by `(a, b)` with `a, b ≤ 4` stays inside the slab; the shifted coordinates are written with a clamp that is
  the identity there, so that one rewrite rule reads every shifted copy.
-/
import proofs.«140928_j40114994544664_2_alg».proof.Proof.Gen.KernelIdeal.Skeleton
import proofs.«140928_j40114994544664_2_alg».proof.Proof.LibColumn
import proofs.«140928_j40114994544664_2_alg».proof.Proof.WindowSum
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

namespace Cert.RbfKernel

open Cert.KernelIdeal Cert.KernelIdeal.Gen Cert.RbfSum
open Idealize.ShloMosaic Idealize.ShloMosaic.ValueIdx

/-- A slab row and a slab column, clamped into range (the identity on the coordinates that occur). -/
def rowAt (k : Nat) : Fin 36 := ⟨min k 35, by omega⟩
def colAt (k : Nat) : Fin 228 := ⟨min k 227, by omega⟩

theorem rowAt_val {k : Nat} (h : k < 36) : (rowAt k).val = k := by show min k 35 = k; omega
theorem colAt_val {k : Nat} (h : k < 228) : (colAt k).val = k := by show min k 227 = k; omega

variable (X : Vec Ideal S1x3x36x228 .f32) (W : Vec Ideal S64x75 .f32)

/-- The slab with its unit axis dropped. -/
theorem chan_apply (c : Fin 3) (y : Fin 36) (z : Fin 228) :
    k0_pay2 (F := Ideal) X (ix3 c y z) = X (ix4 (0 : Fin 1) c y z) := by
  unfold k0_pay2
  exact shapeCast_1abc_abc_apply X shapeCasts_S1x3x36x228_S3x36x228 c y z

/-- The per-pixel sum of squares over the channels. -/
theorem sumsq_apply (y : Fin 36) (z : Fin 228) :
    k0_pay3 (F := Ideal) X (ix2 y z) = ∑ c : Fin 3, X (ix4 (0 : Fin 1) c y z) * X (ix4 (0 : Fin 1) c y z) := by
  unfold k0_pay3
  refine (Ideal.multiReduction_add_single _ _ reduces_S3x36x228_S36x228 _ _ (ix2 y z)).trans ?_
  refine Finset.sum_congr rfl fun c _ => ?_
  have e : reduces_S3x36x228_S36x228.lift (ix2 y z) c = ix3 (⟨c.val, c.isLt⟩ : Fin 3) y z := funext fun a => Fin.ext (by
    match a with
    | ⟨0, _⟩ => rfl
    | ⟨1, _⟩ => rfl
    | ⟨2, _⟩ => rfl)
  rw [e]
  show k0_pay2 (F := Ideal) X (ix3 _ y z) * k0_pay2 (F := Ideal) X (ix3 _ y z) = _
  rw [chan_apply]
  rfl

/-- A `[32, 224]` window of a `[36, 228]` map at offsets `(a, b)`, read at `(r, z)`: the map at `(a + r, b + z)`. -/
theorem shift_apply (V : FVec Ideal S36x228 .f32) (a b : Nat) (h : S36x228.Slices ![a, b] S32x224) (r : Fin 32) (z : Fin 224) :
    extractStridedSlice S32x224 ![a, b] V h (ix2 r z) = V (ix2 (rowAt (a + r.val)) (colAt (b + z.val))) := by
  have h0 : a + 32 ≤ 36 := h.2 0
  have h1 : b + 224 ≤ 228 := h.2 1
  have hr := r.isLt; have hz := z.isLt
  exact extractStridedSlice_apply _ V h _ _ (fun ax => by
    match ax with
    | ⟨0, _⟩ => exact rowAt_val (by omega)
    | ⟨1, _⟩ => exact colAt_val (by omega))

/-- The window norm map: the 25 shifted sums of squares, added from the left. -/
def normMap : FVec Ideal S32x224 .f32 := k0_pay6 (k0_pay3 X) (k0_pay4 X) (k0_pay5 X)

theorem normMap_chain (r : Fin 32) (z : Fin 224) :
    normMap X (ix2 r z)
      = leftSum (fun n => k0_pay3 (F := Ideal) X (ix2 (rowAt (n / 5 + r.val)) (colAt (n % 5 + z.val)))) 24 := by
  unfold normMap k0_pay6 k0_pay4 k0_pay5
  simp only [addf_apply, shift_apply]
  rfl

/-- … so the sum over the 25 offsets and the 3 channels of the squared slab entries. -/
theorem normMap_apply (r : Fin 32) (z : Fin 224) :
    normMap X (ix2 r z)
      = ∑ n : Fin 25, ∑ c : Fin 3,
          X (ix4 (0 : Fin 1) c (rowAt (n.val / 5 + r.val)) (colAt (n.val % 5 + z.val)))
            * X (ix4 (0 : Fin 1) c (rowAt (n.val / 5 + r.val)) (colAt (n.val % 5 + z.val))) := by
  rw [normMap_chain, leftSum_eq]
  exact Finset.sum_congr rfl fun n _ => sumsq_apply X _ _

/-- The prototype norms. -/
def protoNorm : FVec Ideal S64 .f32 := k0_pay9 (k0_pay8 W)

theorem protoNorm_apply (o : Fin 64) :
    protoNorm W (ix1 o) = ∑ k : Fin 75, W (ix2 o k) * W (ix2 o k) := by
  unfold protoNorm k0_pay9 k0_pay8
  exact Cert.Lib.multiReduction_add_row _ reduces_S64x75_S64 _ _ o

end Cert.RbfKernel

end
-- ==== Proof.KernelStack.lean ====
/-
  The kernel's window tensor, read at an index.

  From the slab with its unit axis dropped, `V : [3, 36, 228]`, the body cuts the 25 windows `V[:, a : a + 32, b : b + 224]`
  (`a, b < 5`), gives each a unit axis in second place, joins them along it (offset `n` is `(a, b) = (n / 5, n % 5)`), and
  collapses (channel, offset) to one axis of 75. Entry `(d, r, z)` of the result is therefore `V` at channel `d / 25`,
  row `(d % 25) / 5 + r`, column `d % 5 + z`.
-/
import proofs.«140928_j40114994544664_2_alg».proof.Proof.KernelWindow

set_option maxRecDepth 16384

noncomputable section

namespace Cert.RbfKernel

open Cert.KernelIdeal Cert.KernelIdeal.Gen Cert.RbfSum
open Idealize.ShloMosaic Idealize.ShloMosaic.ValueIdx

/-- A `[3, 32, 224]` window fits in `[3, 36, 228]` at any offsets up to 4 on the two picture axes. -/
theorem window_slices (a b : Nat) (ha : a ≤ 4) (hb : b ≤ 4) : S3x36x228.Slices ![0, a, b] S3x32x224 :=
  ⟨rfl, fun c => by
    match c with
    | ⟨0, _⟩ => show 0 + 3 ≤ 3; omega
    | ⟨1, _⟩ => show a + 32 ≤ 36; omega
    | ⟨2, _⟩ => show b + 224 ≤ 228; omega⟩

/-- The window at offsets `(a, b)` with a unit axis in second place. -/
def tile (V : FVec Ideal S3x36x228 .f32) (a b : Nat) (h : S3x36x228.Slices ![0, a, b] S3x32x224) : FVec Ideal S3x1x32x224 .f32 :=
  shapeCast S3x1x32x224 (extractStridedSlice S3x32x224 ![0, a, b] V h) shapeCasts_S3x32x224_S3x1x32x224

/-- Read at `(c, 0, r, z)`: `V` at `(c, a + r, b + z)`. -/
theorem tile_apply (V : FVec Ideal S3x36x228 .f32) (a b : Nat) (h : S3x36x228.Slices ![0, a, b] S3x32x224)
    (c : Fin 3) (u : Fin 1) (r : Fin 32) (z : Fin 224) :
    tile V a b h (ix4 c u r z) = V (ix3 c (rowAt (a + r.val)) (colAt (b + z.val))) := by
  have h1 : a + 32 ≤ 36 := h.2 1
  have h2 : b + 224 ≤ 228 := h.2 2
  have hr := r.isLt; have hz := z.isLt; have hu : u.val = 0 := by omega
  unfold tile
  rw [shapeCast_apply _ shapeCasts_S3x32x224_S3x1x32x224 (ix4 c u r z) (ix3 c r z) (by
    rw [Shape.rowMajor_val_three, Shape.rowMajor_val_four]
    show (c.val * 32 + r.val) * 224 + z.val = ((c.val * 1 + u.val) * 32 + r.val) * 224 + z.val
    rw [hu]; omega)]
  exact extractStridedSlice_apply _ V h _ _ (fun ax => by
    match ax with
    | ⟨0, _⟩ => show c.val = 0 + c.val; omega
    | ⟨1, _⟩ => exact rowAt_val (by omega)
    | ⟨2, _⟩ => exact colAt_val (by omega))

/-- Offset number `n` of the 25, in the order the body joins them. -/
def tileOf (V : FVec Ideal S3x36x228 .f32) (n : Nat) (hn : n < 25) : FVec Ideal S3x1x32x224 .f32 :=
  tile V (n / 5) (n % 5) (window_slices _ _ (by omega) (by omega))

/-- The 25 tiles join along the second axis into `[3, 25, 32, 224]`. -/
theorem tiles_join (V : FVec Ideal S3x36x228 .f32) :
    Shape.Concatenates
      ((List.ofFn fun n : Fin 25 => (⟨S3x1x32x224, tileOf V n.val n.isLt⟩ : (s : Shape) × (s.Idx → EReal))).map (·.1))
      S3x25x32x224 1 :=
  concatenates_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x1x32x224_S3x25x32x224_d1

/-- The window tensor is the 25 tiles joined and collapsed. -/
theorem stack_eq (V : FVec Ideal S3x36x228 .f32) :
    k0_pay7 (F := Ideal) V
      = shapeCast S75x32x224
          (concatenate S3x25x32x224 1
            (List.ofFn fun n : Fin 25 => (⟨S3x1x32x224, tileOf V n.val n.isLt⟩ : (s : Shape) × (s.Idx → EReal)))
            (tiles_join V))
          shapeCasts_S3x25x32x224_S75x32x224 :=
  rfl

/-- Entry `(d, r, z)` of the window tensor. -/
theorem stack_apply (V : FVec Ideal S3x36x228 .f32) (d : Fin 75) (r : Fin 32) (z : Fin 224) :
    k0_pay7 (F := Ideal) V (ix3 d r z)
      = V (ix3 (⟨d.val / 25, by have := d.isLt; omega⟩ : Fin 3) (rowAt (d.val % 25 / 5 + r.val)) (colAt (d.val % 5 + z.val))) := by
  have hd := d.isLt; have hr := r.isLt; have hz := z.isLt
  rw [stack_eq]
  rw [shapeCast_apply _ shapeCasts_S3x25x32x224_S75x32x224 (ix3 d r z)
    (ix4 (⟨d.val / 25, by omega⟩ : Fin 3) (⟨d.val % 25, by omega⟩ : Fin 25) r z) (by
      rw [Shape.rowMajor_val_four, Shape.rowMajor_val_three]
      show ((d.val / 25 * 25 + d.val % 25) * 32 + r.val) * 224 + z.val = (d.val * 32 + r.val) * 224 + z.val
      have : d.val / 25 * 25 + d.val % 25 = d.val := by omega
      rw [this])]
  rw [concatenate_ofFn_unit_apply (t := S3x25x32x224) (s₁ := S3x1x32x224) (1 : Fin 4) _ _ rfl rfl _ (⟨d.val % 25, by omega⟩ : Fin 25) rfl
    (ix4 (⟨d.val / 25, by omega⟩ : Fin 3) (0 : Fin 1) r z) (fun b hb => by
      match b with
      | ⟨0, _⟩ => rfl
      | ⟨1, _⟩ => exact absurd rfl hb
      | ⟨2, _⟩ => rfl
      | ⟨3, _⟩ => rfl)]
  show tileOf V (d.val % 25) _ (ix4 _ (0 : Fin 1) r z) = _
  unfold tileOf
  rw [tile_apply]
  show V (ix3 _ (rowAt (d.val % 25 / 5 + r.val)) (colAt (d.val % 25 % 5 + z.val))) = _
  rw [show d.val % 25 % 5 = d.val % 5 by omega]

/-- The window tensor of the slab. -/
def windowTensor (X : Vec Ideal S1x3x36x228 .f32) : FVec Ideal S75x32x224 .f32 := k0_pay7 (k0_pay2 X)

theorem windowTensor_apply (X : Vec Ideal S1x3x36x228 .f32) (d : Fin 75) (r : Fin 32) (z : Fin 224) :
    windowTensor X (ix3 d r z)
      = X (ix4 (0 : Fin 1) (⟨d.val / 25, by have := d.isLt; omega⟩ : Fin 3) (rowAt (d.val % 25 / 5 + r.val))
          (colAt (d.val % 5 + z.val))) := by
  unfold windowTensor
  rw [stack_apply, chan_apply]

end Cert.RbfKernel

end
-- ==== Proof.KernelRow.lean ====
/-
  One output row of the tile, read at an index.

  For row `r` of the 32 the body takes row `r` of the window tensor (a `[75, 224]` matrix), multiplies the prototypes
  `[64, 75]` into it on the matrix unit from a zero accumulator, adds the prototype norms down the columns and row `r` of
  the window norm map along the rows, takes off twice the product, clamps at zero, takes the square root, and stores the
  `[64, 224]` result as a `[1, 64, 1, 224]` piece. At `(0, o, 0, z)` that is
  `√ max ((wn o + pn (r, z)) − 2 · ∑ k, w (o, k) · win (k, r, z)) 0`: the narrowing of both factors to bf16 is the identity
  on the extended reals, and the product into a zero accumulator is the plain sum over the 75 contracted entries.
-/
import proofs.«140928_j40114994544664_2_alg».proof.Proof.KernelStack

set_option maxRecDepth 16384

noncomputable section

namespace Cert.RbfKernel

open Cert.KernelIdeal Cert.KernelIdeal.Gen Cert.RbfSum
open Idealize.ShloMosaic Idealize.ShloMosaic.ValueIdx

/-- The product `[64, 75] × [75, 224] → [64, 224]`, contracting the 75. -/
abbrev dotD : DotDims S64x75 S75x224 S64x224 := dot_S64x75_S75x224_S64x224_1_0_0_1_n_n

/-- Row `r` of the tile as the body computes it, from the window norm map, the window tensor, the prototype norms and
    the narrowed prototypes. -/
def rowTerm (r : Nat) (h1 : S32x224.Slices ![r, 0] S1x224) (h2 : S75x32x224.Slices ![0, r, 0] S75x1x224)
    (v55 : FVec Ideal S32x224 .f32) (v107 : FVec Ideal S75x32x224 .f32) (v110 : FVec Ideal S64 .f32)
    (v111 : FVec Ideal S64x75 .bf16) : FVec Ideal S1x64x1x224 .f32 :=
  shapeCast S1x64x1x224
    (sqrt (maximumf
      (subf
        (addf (broadcastTo S64x224 (shapeCast S64x1 v110 shapeCasts_S64_S64x1) broadcasts_S64x1_S64x224)
          (broadcastTo S64x224 (extractStridedSlice S1x224 ![r, 0] v55 h1) broadcasts_S1x224_S64x224))
        (mulf (broadcast S64x224 (Scalar.ofBits (F := Ideal) .f32 0x40000000#32))
          (matmul dotD none v111
            (truncf .bf16 (shapeCast S75x224 (extractStridedSlice S75x1x224 ![0, r, 0] v107 h2) shapeCasts_S75x1x224_S75x224)
              bitsLt_bf16_f32)
            (constant (F := Ideal) S64x224 .f32 0x00000000#32))))
      (broadcast S64x224 (Scalar.ofBits (F := Ideal) .f32 0x00000000#32))))
    shapeCasts_S64x224_S1x64x1x224

/-- The operand indices of the product `[64, 75] × [75, 224]` at output `(o, z)` and contracted entry `k`. -/
theorem lhs_idx (o : Fin 64) (z : Fin 224) (k : Fin 75) :
    dotD.lhsIdx (ix2 o z) ((contrEquiv1 dotD 75 rfl rfl).symm k) = ix2 o k := by
  have hk := contrEquiv1_symm_val dotD 75 rfl rfl k
  refine funext fun a => Fin.ext ?_
  match a with
  | ⟨0, _⟩ =>
    show (dotD.lhsIdx (ix2 o z) _ 0).val = o.val
    unfold DotDims.lhsIdx
    rw [dif_neg (show ¬(0 : Fin S64x75.rank) ∈ dotD.lhsBatch by decide),
      dif_pos (show (0 : Fin S64x75.rank) ∈ dotD.lhsNonContracting by decide)]
    rfl
  | ⟨1, _⟩ => exact (dotD.lhsIdx_val_of_single rfl (ix2 o z) _).trans hk

theorem rhs_idx (o : Fin 64) (z : Fin 224) (k : Fin 75) :
    dotD.rhsIdx (ix2 o z) ((contrEquiv1 dotD 75 rfl rfl).symm k) = ix2 k z := by
  have hk := contrEquiv1_symm_val dotD 75 rfl rfl k
  refine funext fun a => Fin.ext ?_
  match a with
  | ⟨0, _⟩ => exact (dotD.rhsIdx_val_of_single rfl (ix2 o z) _).trans hk
  | ⟨1, _⟩ =>
    show (dotD.rhsIdx (ix2 o z) _ 1).val = z.val
    unfold DotDims.rhsIdx
    rw [dif_neg (show ¬(1 : Fin S75x224.rank) ∈ dotD.rhsBatch by decide),
      dif_pos (show (1 : Fin S75x224.rank) ∈ dotD.rhsNonContracting by decide)]
    rfl

/-- The product into a zero accumulator at `(o, z)`: the sum over the 75 contracted entries. -/
theorem product_apply (l : FVec Ideal S64x75 .bf16) (m : FVec Ideal S75x224 .bf16) (o : Fin 64) (z : Fin 224) :
    matmul dotD none l m (constant (F := Ideal) S64x224 .f32 0x00000000#32) (ix2 o z) = ∑ k : Fin 75, l (ix2 o k) * m (ix2 k z) := by
  simp only [matmul]
  rw [Ideal.matmul_constant_zero_apply, ← Equiv.sum_comp (contrEquiv1 dotD 75 rfl rfl).symm]
  exact Finset.sum_congr rfl fun k _ => by rw [lhs_idx, rhs_idx]

/-- Row `r` of the window tensor as a matrix, at `(k, z)`. -/
theorem tensorRow_apply (r : Fin 32) (h2 : S75x32x224.Slices ![0, r.val, 0] S75x1x224) (v107 : FVec Ideal S75x32x224 .f32)
    (k : Fin 75) (z : Fin 224) :
    shapeCast S75x224 (extractStridedSlice S75x1x224 ![0, r.val, 0] v107 h2) shapeCasts_S75x1x224_S75x224 (ix2 k z)
      = v107 (ix3 k r z) := by
  rw [shapeCast_apply _ shapeCasts_S75x1x224_S75x224 (ix2 k z) (ix3 k (0 : Fin 1) z) (by
    rw [Shape.rowMajor_val_three, Shape.rowMajor_val_two]
    show (k.val * 1 + 0) * 224 + z.val = k.val * 224 + z.val
    omega)]
  exact slice3_axis1_apply r.val v107 h2 k (0 : Fin 1) z r (by show r.val = r.val + 0; omega)

/-- Row `r` of the tile at `(0, o, 0, z)`. -/
theorem rowTerm_apply (r : Fin 32) (h1 : S32x224.Slices ![r.val, 0] S1x224) (h2 : S75x32x224.Slices ![0, r.val, 0] S75x1x224)
    (v55 : FVec Ideal S32x224 .f32) (v107 : FVec Ideal S75x32x224 .f32) (v110 : FVec Ideal S64 .f32)
    (v111 : FVec Ideal S64x75 .bf16) (u0 : Fin 1) (o : Fin 64) (u2 : Fin 1) (z : Fin 224) :
    rowTerm r.val h1 h2 v55 v107 v110 v111 (ix4 u0 o u2 z)
      = Ideal.sqrt (max
          ((v110 (ix1 o) + v55 (ix2 r z))
            - Ideal.ofBits .f32 0x40000000#32 * ∑ k : Fin 75, v111 (ix2 o k) * v107 (ix3 k r z))
          (Ideal.ofBits .f32 0x00000000#32)) := by
  have hu0 : u0.val = 0 := by omega
  have hu2 : u2.val = 0 := by omega
  unfold rowTerm
  rw [shapeCast_apply _ shapeCasts_S64x224_S1x64x1x224 (ix4 u0 o u2 z) (ix2 o z) (by
    rw [Shape.rowMajor_val_two, Shape.rowMajor_val_four]
    show o.val * 224 + z.val = (((u0.val * 64 + o.val) * 1 + u2.val) * 224 + z.val)
    rw [hu0, hu2]; omega)]
  show Ideal.sqrt (max
      ((broadcastTo S64x224 (shapeCast S64x1 v110 shapeCasts_S64_S64x1) broadcasts_S64x1_S64x224 (ix2 o z)
          + broadcastTo S64x224 (extractStridedSlice S1x224 ![r.val, 0] v55 h1) broadcasts_S1x224_S64x224 (ix2 o z))
        - Ideal.ofBits .f32 0x40000000#32
          * matmul dotD none v111
              (truncf .bf16 (shapeCast S75x224 (extractStridedSlice S75x1x224 ![0, r.val, 0] v107 h2) shapeCasts_S75x1x224_S75x224)
                bitsLt_bf16_f32)
              (constant (F := Ideal) S64x224 .f32 0x00000000#32) (ix2 o z))
      (Ideal.ofBits .f32 0x00000000#32)) = _
  rw [Cert.Lib.broadcastTo_a1_ab_apply, Cert.Lib.shapeCast_a_a1_apply, broadcastTo_1b_ab_apply,
    slice2_axis0_apply r.val v55 h1 (0 : Fin 1) z r (by show r.val = r.val + 0; omega), product_apply]
  refine congrArg (fun s => Ideal.sqrt (max ((v110 (ix1 o) + v55 (ix2 r z)) - Ideal.ofBits .f32 0x40000000#32 * s)
    (Ideal.ofBits .f32 0x00000000#32))) (Finset.sum_congr rfl fun k _ => ?_)
  show v111 (ix2 o k) * shapeCast S75x224 (extractStridedSlice S75x1x224 ![0, r.val, 0] v107 h2) shapeCasts_S75x1x224_S75x224 (ix2 k z) = _
  rw [tensorRow_apply]

end Cert.RbfKernel

end
-- ==== Proof.KernelBlock.lean ====
/-
  What the body leaves in the output tile at a grid point.

  The body writes the tile `[1, 64, 32, 224]` one row at a time: 32 stores, store `r` through the rectangle of row `r`
  (all 64 channels, all 224 columns). Every stored row is the same function of the loaded slab `X` and prototypes `W`,
  read at its own row, so the tile the stores leave is that one function of the tile index `(0, o, r, z)`:
  `√ max ((wn o + pn (r, z)) − 2 · ∑ k, W (o, k) · win (k, r, z)) 0`. (The body also loads each row of the tile before it
  stores it; no stored value depends on what those loads return.)
-/
import proofs.«140928_j40114994544664_2_alg».proof.Proof.KernelRow
import proofs.«140928_j40114994544664_2_alg».proof.Proof.Gen.KernelIdeal.Frame

set_option maxRecDepth 16384

noncomputable section

namespace Cert.RbfKernel

open Cert.KernelIdeal Cert.KernelIdeal.Gen Cert.RbfSum
open Idealize.ShloMosaic Idealize.ShloMosaic.ValueIdx Idealize.ShloMosaic.TcCoe Idealize.SL.Sem

/-- The tile as a function of the slab and the prototypes. -/
def tileVal (X : Vec Ideal S1x3x36x228 .f32) (W : Vec Ideal S64x75 .f32) (y : S1x64x32x224.Idx) : EReal :=
  Ideal.sqrt (max
    ((protoNorm W (ix1 (y 1)) + normMap X (ix2 (y 2) (y 3)))
      - Ideal.ofBits .f32 0x40000000#32 * ∑ k : Fin 75, W (ix2 (y 1) k) * windowTensor X (ix3 k (y 2) (y 3)))
    (Ideal.ofBits .f32 0x00000000#32))

/-- Row `r` of the norm map and of the window tensor are inside them, and row `r` of the tile inside the tile. -/
theorem rowSlices (r : Fin 32) : S32x224.Slices ![r.val, 0] S1x224 :=
  ⟨rfl, fun c => by
    have := r.isLt
    match c with
    | ⟨0, _⟩ => show r.val + 1 ≤ 32; omega
    | ⟨1, _⟩ => show 0 + 224 ≤ 224; omega⟩
theorem tensorSlices (r : Fin 32) : S75x32x224.Slices ![0, r.val, 0] S75x1x224 :=
  ⟨rfl, fun c => by
    have := r.isLt
    match c with
    | ⟨0, _⟩ => show 0 + 75 ≤ 75; omega
    | ⟨1, _⟩ => show r.val + 1 ≤ 32; omega
    | ⟨2, _⟩ => show 0 + 224 ≤ 224; omega⟩
theorem pieceInb (r : Fin 32) :
    ∀ a, (![0, 0, r.val, 0] : Fin 4 → Nat) a + (![1, 64, 1, 224] : Fin 4 → Nat) a ≤ S1x64x32x224.size a := fun a => by
  have := r.isLt
  match a with
  | ⟨0, _⟩ => show 0 + 1 ≤ 1; omega
  | ⟨1, _⟩ => show 0 + 64 ≤ 64; omega
  | ⟨2, _⟩ => show r.val + 1 ≤ 32; omega
  | ⟨3, _⟩ => show 0 + 224 ≤ 224; omega

/-- The stored row `r` is the tile function read through row `r`'s rectangle. -/
theorem piece_eq (r : Fin 32) (X : Vec Ideal S1x3x36x228 .f32) (W : Vec Ideal S64x75 .f32)
    (x : (⟨4, ![1, 64, 1, 224]⟩ : Shape).Idx) :
    rowTerm r.val (rowSlices r) (tensorSlices r) (normMap X) (windowTensor X) (protoNorm W) (k0_pay10 W) x
      = tileVal X W ((Rect.unit (s := S1x64x32x224) ![0, 0, r.val, 0] ![1, 64, 1, 224] (pieceInb r)).emb x) := by
  obtain ⟨u0, o, u2, z, rfl⟩ : ∃ (u0 : Fin 1) (o : Fin 64) (u2 : Fin 1) (z : Fin 224), x = ix4 u0 o u2 z :=
    ⟨x 0, x 1, x 2, x 3, eq_ix4 x⟩
  have hu2 : u2.val = 0 := by omega
  rw [rowTerm_apply]
  unfold tileVal
  have e1 : (Rect.unit (s := S1x64x32x224) ![0, 0, r.val, 0] ![1, 64, 1, 224] (pieceInb r)).emb (ix4 u0 o u2 z) 1 = o :=
    Fin.ext (by show 0 + 1 * o.val = o.val; omega)
  have e2 : (Rect.unit (s := S1x64x32x224) ![0, 0, r.val, 0] ![1, 64, 1, 224] (pieceInb r)).emb (ix4 u0 o u2 z) 2 = r :=
    Fin.ext (by show r.val + 1 * u2.val = r.val; omega)
  have e3 : (Rect.unit (s := S1x64x32x224) ![0, 0, r.val, 0] ![1, 64, 1, 224] (pieceInb r)).emb (ix4 u0 o u2 z) 3 = z :=
    Fin.ext (by show 0 + 1 * z.val = z.val; omega)
  rw [e1, e2, e3]
  rfl

theorem hz2 : (![0, 0] : Fin 2 → Nat) = fun _ => 0 := funext fun a => by fin_cases a <;> rfl

/-- What the run leaves in the output's staging buffer: the tile function of the slab the body loads (36 rows of the
    image block from the point's row offset) and of the prototype block. -/
theorem block_eq (c : Dev nD) (i : grid0.Coords) (a2 : Memref sig .tc .vmem S1x3x228x228 .f32) (h2 : a2.IsWhole)
    (a3 : Memref sig .tc .vmem S64x75 .f32) (h3 : a3.IsWhole) (a4 : Memref sig .tc .vmem S1x64x32x224 .f32) (h4 : a4.IsWhole)
    (x0 : Vec Ideal S1x3x228x228 .f32) (x1 : Vec Ideal S64x75 .f32) :
    out0_A_2 (F := Ideal) c i a2 h2 a3 h3 a4 h4 x0 x1
      = tileVal (View.ld x0 (Rect.unit (s := S1x3x228x228) (k0_off1 i) S1x3x36x228.size (k0_off1_inb i))) x1 := by
  unfold out0_A_2
  rw [View.read_writes_eq_canon _ _ _ (cover0_A_2 c i a2 h2 a3 h3 a4 h4 x0 x1)]
  have key : View.canon (kernelRun0_A (F := Ideal) c i a2 h2 a3 h3 a4 h4 x0 x1).1
      = tileVal (View.readAt (Elt Ideal) a2.view
            (Rect.unit (s := S1x3x228x228) (k0_off1 i) S1x3x36x228.size (k0_off1_inb i)).toLoadRect (h2.unread x0))
          (View.readAt (Elt Ideal) a3.view (Rect.unit (s := S64x75) ![0, 0] S64x75.size inb_S64x75_S64x75_0_0).toLoadRect
            (h3.unread x1)) := by
    funext y
    refine View.canon_apply_of_pieces (tileVal _ _) _ ?_ y (cover0_A_2 c i a2 h2 a3 h3 a4 h4 x0 x1 y)
    unfold kernelRun0_A
    dsimp only
    intro p hp
    simp only [List.mem_cons, List.not_mem_nil, or_false] at hp
    rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    · exact fun x => piece_eq (⟨31, by decide⟩ : Fin 32) _ _ x
    · exact fun x => piece_eq (⟨30, by decide⟩ : Fin 32) _ _ x
    · exact fun x => piece_eq (⟨29, by decide⟩ : Fin 32) _ _ x
    · exact fun x => piece_eq (⟨28, by decide⟩ : Fin 32) _ _ x
    · exact fun x => piece_eq (⟨27, by decide⟩ : Fin 32) _ _ x
    · exact fun x => piece_eq (⟨26, by decide⟩ : Fin 32) _ _ x
    · exact fun x => piece_eq (⟨25, by decide⟩ : Fin 32) _ _ x
    · exact fun x => piece_eq (⟨24, by decide⟩ : Fin 32) _ _ x
    · exact fun x => piece_eq (⟨23, by decide⟩ : Fin 32) _ _ x
    · exact fun x => piece_eq (⟨22, by decide⟩ : Fin 32) _ _ x
    · exact fun x => piece_eq (⟨21, by decide⟩ : Fin 32) _ _ x
    · exact fun x => piece_eq (⟨20, by decide⟩ : Fin 32) _ _ x
    · exact fun x => piece_eq (⟨19, by decide⟩ : Fin 32) _ _ x
    · exact fun x => piece_eq (⟨18, by decide⟩ : Fin 32) _ _ x
    · exact fun x => piece_eq (⟨17, by decide⟩ : Fin 32) _ _ x
    · exact fun x => piece_eq (⟨16, by decide⟩ : Fin 32) _ _ x
    · exact fun x => piece_eq (⟨15, by decide⟩ : Fin 32) _ _ x
    · exact fun x => piece_eq (⟨14, by decide⟩ : Fin 32) _ _ x
    · exact fun x => piece_eq (⟨13, by decide⟩ : Fin 32) _ _ x
    · exact fun x => piece_eq (⟨12, by decide⟩ : Fin 32) _ _ x
    · exact fun x => piece_eq (⟨11, by decide⟩ : Fin 32) _ _ x
    · exact fun x => piece_eq (⟨10, by decide⟩ : Fin 32) _ _ x
    · exact fun x => piece_eq (⟨9, by decide⟩ : Fin 32) _ _ x
    · exact fun x => piece_eq (⟨8, by decide⟩ : Fin 32) _ _ x
    · exact fun x => piece_eq (⟨7, by decide⟩ : Fin 32) _ _ x
    · exact fun x => piece_eq (⟨6, by decide⟩ : Fin 32) _ _ x
    · exact fun x => piece_eq (⟨5, by decide⟩ : Fin 32) _ _ x
    · exact fun x => piece_eq (⟨4, by decide⟩ : Fin 32) _ _ x
    · exact fun x => piece_eq (⟨3, by decide⟩ : Fin 32) _ _ x
    · exact fun x => piece_eq (⟨2, by decide⟩ : Fin 32) _ _ x
    · exact fun x => piece_eq (⟨1, by decide⟩ : Fin 32) _ _ x
    · exact fun x => piece_eq (⟨0, by decide⟩ : Fin 32) _ _ x
  rw [key]
  simp only [View.readAt_eq_ld, h2.read_unread, h3.read_unread, View.ld_unit_zero (S := S64x75) hz2]

end Cert.RbfKernel

end
-- ==== Proof.Spec.lean ====
/-
  The distance map both programs compute, as one function of a padded image and the prototype rows.

  For an image batch padded by two zeros on each side of its two picture axes, `xp : [32, 3, 228, 228]`, and 64
  prototype rows `wt : [64, 75]`, the window at output position `(h, w)` of image `b` is the 75-vector
  `p k = xp[b, k / 25, h + (k % 25) / 5, w + k % 5]` (channel slowest, then the 5 × 5 offsets), and the entry
  `(b, o, h, w)` of the result is the Euclidean distance from `p` to row `o`, taken through the expansion
  `√ max ((‖p‖² + ‖wt o‖²) − 2 ⟨p, wt o⟩) 0` on the extended reals.
-/
import Idealize.ShloMosaic.PureOps.Ideal
import Idealize.ShloMosaic.Lib.ValueIdx

noncomputable section

namespace Cert.RbfSpec

open Idealize.ShloMosaic Idealize.ShloMosaic.ValueIdx

/-- The padded image batch, the prototype rows, the result. -/
abbrev SPad : Shape := ⟨4, ![32, 3, 228, 228]⟩
abbrev SProto : Shape := ⟨2, ![64, 75]⟩
abbrev SOut : Shape := ⟨4, ![32, 64, 224, 224]⟩

/-- Where entry `k` of the window at `(h, w)` of image `b` sits in the padded batch: channel `k / 25`, row
    `h + (k % 25) / 5`, column `w + k % 5`. -/
def winIdx (b : Fin 32) (h w : Fin 224) (k : Fin 75) : SPad.Idx :=
  ix4 b ⟨k.val / 25, by have := k.isLt; omega⟩ ⟨h.val + k.val % 25 / 5, by have := h.isLt; omega⟩
    ⟨w.val + k.val % 5, by have := w.isLt; omega⟩

/-- Entry `k` of that window. -/
def win (xp : SPad.Idx → EReal) (b : Fin 32) (h w : Fin 224) (k : Fin 75) : EReal := xp (winIdx b h w k)

/-- The distance from the window at `(h, w)` of image `b` to prototype row `o`: squared norms added, twice the inner
    product taken off, clamped at zero, square root. -/
def rbfDist (xp : SPad.Idx → EReal) (wt : SProto.Idx → EReal) (i : SOut.Idx) : EReal :=
  Ideal.sqrt (max
    (((∑ k : Fin 75, win xp (i 0) (i 2) (i 3) k * win xp (i 0) (i 2) (i 3) k)
        + ∑ k : Fin 75, wt (ix2 (i 1) k) * wt (ix2 (i 1) k))
      - Ideal.ofBits .f32 0x40000000#32 * ∑ k : Fin 75, win xp (i 0) (i 2) (i 3) k * wt (ix2 (i 1) k))
    (Ideal.ofBits .f32 0x00000000#32))

end Cert.RbfSpec

end
-- ==== Proof.KernelTile.lean ====
/-
  The tile is a tile of the distance map.

  At the grid point for image `b` and row tile `t₁` (of 7) the slab the body loads is rows `32 t₁ … 32 t₁ + 35` of the padded
  image `b`, and the prototype block is the prototypes. Then at tile index `(0, o, r, z)`:
    * the prototype norm is the specification's, term by term;
    * entry `k` of the window tensor at `(r, z)` is the padded batch at channel `k / 25`, row `32 t₁ + r + (k % 25) / 5`,
      column `z + k % 5`: entry `k` of the window at `(32 t₁ + r, z)`;
    * the window norm, a sum over the 25 offsets and inside it the 3 channels, is the sum over the 75 window entries
      (75 = 3 × 25, the entries regrouped: a sum in a commutative monoid, no finiteness asked);
    * the body adds the prototype norm first and multiplies the prototype entry first, the specification the other way
      round: commutativity of the sum and of the product on the extended reals.
-/
import proofs.«140928_j40114994544664_2_alg».proof.Proof.KernelBlock
import proofs.«140928_j40114994544664_2_alg».proof.Proof.Spec

set_option maxRecDepth 16384

noncomputable section

namespace Cert.RbfKernel

open Cert.KernelIdeal Cert.KernelIdeal.Gen Cert.RbfSum Cert.RbfSpec
open Idealize.ShloMosaic Idealize.ShloMosaic.ValueIdx

theorem tile_dist (X : Vec Ideal S1x3x36x228 .f32) (W : Vec Ideal S64x75 .f32)
    (Vp : SPad.Idx → EReal) (Vw : SProto.Idx → EReal) (b : Fin 32) (t1 : Fin 7)
    (hX : ∀ (c : Fin 3) (y : Fin 36) (z' : Fin 228),
      X (ix4 (0 : Fin 1) c y z') = Vp (ix4 b c (⟨32 * t1.val + y.val, by have := t1.isLt; have := y.isLt; omega⟩ : Fin 228) z'))
    (hW : ∀ (o : Fin 64) (k : Fin 75), W (ix2 o k) = Vw (ix2 o k))
    (u : Fin 1) (o : Fin 64) (r : Fin 32) (z : Fin 224) :
    tileVal X W (ix4 u o r z)
      = rbfDist Vp Vw (ix4 b o (⟨32 * t1.val + r.val, by have := t1.isLt; have := r.isLt; omega⟩ : Fin 224) z) := by
  have ht := t1.isLt; have hr := r.isLt; have hz := z.isLt
  -- entry `k` of the window, from the slab
  have hent : ∀ (k : Fin 75) (q : Nat) (hq : q = k.val % 5),
      X (ix4 (0 : Fin 1) (⟨k.val / 25, by have := k.isLt; omega⟩ : Fin 3) (rowAt (k.val % 25 / 5 + r.val)) (colAt (q + z.val)))
        = win Vp b (⟨32 * t1.val + r.val, by omega⟩ : Fin 224) z k := by
    intro k q hq
    have hk := k.isLt
    rw [hX]
    unfold win winIdx
    refine congrArg Vp (funext fun a => Fin.ext ?_)
    match a with
    | ⟨0, _⟩ => rfl
    | ⟨1, _⟩ => rfl
    | ⟨2, _⟩ =>
      show 32 * t1.val + (rowAt (k.val % 25 / 5 + r.val)).val = 32 * t1.val + r.val + k.val % 25 / 5
      rw [rowAt_val (by omega)]; omega
    | ⟨3, _⟩ =>
      show (colAt (q + z.val)).val = z.val + k.val % 5
      rw [colAt_val (by omega)]; omega
  have hwn : protoNorm W (ix1 o) = ∑ k : Fin 75, Vw (ix2 o k) * Vw (ix2 o k) := by
    rw [protoNorm_apply]
    exact Finset.sum_congr rfl fun k _ => by rw [hW]
  have hpn : normMap X (ix2 r z)
      = ∑ k : Fin 75, win Vp b (⟨32 * t1.val + r.val, by omega⟩ : Fin 224) z k
          * win Vp b (⟨32 * t1.val + r.val, by omega⟩ : Fin 224) z k := by
    rw [normMap_apply]
    refine (sum_split (fun (c : Fin 3) (n : Fin 25) =>
      X (ix4 (0 : Fin 1) c (rowAt (n.val / 5 + r.val)) (colAt (n.val % 5 + z.val)))
        * X (ix4 (0 : Fin 1) c (rowAt (n.val / 5 + r.val)) (colAt (n.val % 5 + z.val))))).symm.trans ?_
    refine Finset.sum_congr rfl fun k _ => ?_
    have hk := k.isLt
    exact congrArg₂ (· * ·) (hent k (k.val % 25 % 5) (by omega)) (hent k (k.val % 25 % 5) (by omega))
  have hdot : (∑ k : Fin 75, W (ix2 o k) * windowTensor X (ix3 k r z))
      = ∑ k : Fin 75, win Vp b (⟨32 * t1.val + r.val, by omega⟩ : Fin 224) z k * Vw (ix2 o k) := by
    refine Finset.sum_congr rfl fun k _ => ?_
    rw [hW, windowTensor_apply, hent k (k.val % 5) rfl, mul_comm]
  unfold tileVal rbfDist
  show Ideal.sqrt (max
      ((protoNorm W (ix1 o) + normMap X (ix2 r z))
        - Ideal.ofBits .f32 0x40000000#32 * ∑ k : Fin 75, W (ix2 o k) * windowTensor X (ix3 k r z))
      (Ideal.ofBits .f32 0x00000000#32)) = _
  rw [hwn, hpn, hdot, add_comm (∑ k : Fin 75, Vw (ix2 o k) * Vw (ix2 o k))]

end Cert.RbfKernel

end
-- ==== Proof.KernelArray.lean ====
/-
  From the tiles to the whole array.

  The grid has 224 points: point `t` is image `t / 7`, row tile `t % 7`. Its input block of the padded batch is the whole
  padded image `t / 7`, from which the body loads 36 rows starting at row `32 (t % 7)`; its prototype block is the whole
  prototype array; its output block is rows `32 (t % 7) … + 31` of image `t / 7`, all channels and columns. So what the
  point writes back is that block of the distance map of the padded batch and the prototypes, the blocks cover the result
  (entry `(b, o, h, w)` lies in the block of point `7 b + h / 32`), and the result array ends as the distance map. The
  padded batch is what the one host operation before the region, a pad by two zeros on each side of the picture axes,
  makes of the argument.
-/
import proofs.«140928_j40114994544664_2_alg».proof.Proof.KernelTile
import proofs.«140928_j40114994544664_2_alg».proof.Proof.Gen.KernelIdeal.Value
import Idealize.ShloMosaic.Lib.StableHlo.Run

set_option maxRecDepth 16384

noncomputable section

namespace Cert.RbfKernel

open Cert.KernelIdeal Cert.KernelIdeal.Gen Cert.RbfSum Cert.RbfSpec
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The printed index maps and the load's row offset, decided once over the grid. -/
theorem idx_facts : ∀ t : Fin cfg0.N,
    win0_0.index t (0 : Fin 4) = t.val / 7 ∧ win0_0.index t (1 : Fin 4) = 0
    ∧ win0_0.index t (2 : Fin 4) = 0 ∧ win0_0.index t (3 : Fin 4) = 0
    ∧ win0_1.index t (0 : Fin 2) = 0 ∧ win0_1.index t (1 : Fin 2) = 0
    ∧ win0_2.index t (0 : Fin 4) = t.val / 7 ∧ win0_2.index t (1 : Fin 4) = 0
    ∧ win0_2.index t (2 : Fin 4) = t.val % 7 ∧ win0_2.index t (3 : Fin 4) = 0
    ∧ k0_off1 (grid0.coords t) (0 : Fin 4) = 0 ∧ k0_off1 (grid0.coords t) (1 : Fin 4) = 0
    ∧ k0_off1 (grid0.coords t) (2 : Fin 4) = t.val % 7 * 32 ∧ k0_off1 (grid0.coords t) (3 : Fin 4) = 0 :=
  (by decide +kernel : ∀ t : Fin grid0.N, _)

/-- What point `t` writes back is its block of the distance map of the padded batch and the prototypes, as the region
    finds them. -/
theorem flushed_eq (c : Dev nD) (t : Fin cfg0.N) :
    (dats m 0 c).flushed 2 t
      = ((cfg0.win 2).blk t).view.read (Elt Ideal) (rbfDist (V m c main_v0) (V m c main_arg1)) := by
  have hN : cfg0.N = 224 := N_0
  have htl := t.isLt
  obtain ⟨a0, a1, a2, a3, b0, b1, c0, c1, c2, c3, o0, o1, o2, o3⟩ := idx_facts t
  rw [Cert.KernelIdeal.Value.flushed2_A, block_eq]
  funext j
  obtain ⟨u, o, r, z, rfl⟩ : ∃ (u : Fin 1) (o : Fin 64) (r : Fin 32) (z : Fin 224), j = ix4 u o r z :=
    ⟨j 0, j 1, j 2, j 3, eq_ix4 j⟩
  have hu : u.val = 0 := by omega
  have hX : ∀ (cc : Fin 3) (y : Fin 36) (z' : Fin 228),
      View.ld (iblk m c 0 t) (Rect.unit (s := S1x3x228x228) (k0_off1 (grid0.coords t)) S1x3x36x228.size (k0_off1_inb (grid0.coords t)))
          (ix4 (0 : Fin 1) cc y z')
        = (V m c main_v0 : SPad.Idx → EReal)
            (ix4 (⟨t.val / 7, by omega⟩ : Fin 32) cc (⟨32 * (t.val % 7) + y.val, by have := y.isLt; omega⟩ : Fin 228) z') := by
    intro cc y z'
    show V m c main_v0 (((cfg0.win 0).blk t).view.emb
        ((Rect.unit (s := S1x3x228x228) (k0_off1 (grid0.coords t)) S1x3x36x228.size (k0_off1_inb (grid0.coords t))).idx
          (ix4 (0 : Fin 1) cc y z'))) = _
    refine congrArg (V m c main_v0) (funext fun a => Fin.ext ?_)
    match a with
    | ⟨0, _⟩ =>
      show win0_0.index t (0 : Fin 4) * 1 + 1 * (k0_off1 (grid0.coords t) (0 : Fin 4) + 1 * 0) = t.val / 7
      omega
    | ⟨1, _⟩ =>
      show win0_0.index t (1 : Fin 4) * 3 + 1 * (k0_off1 (grid0.coords t) (1 : Fin 4) + 1 * cc.val) = cc.val
      omega
    | ⟨2, _⟩ =>
      show win0_0.index t (2 : Fin 4) * 228 + 1 * (k0_off1 (grid0.coords t) (2 : Fin 4) + 1 * y.val) = 32 * (t.val % 7) + y.val
      omega
    | ⟨3, _⟩ =>
      show win0_0.index t (3 : Fin 4) * 228 + 1 * (k0_off1 (grid0.coords t) (3 : Fin 4) + 1 * z'.val) = z'.val
      omega
  have hW : ∀ (o' : Fin 64) (k : Fin 75), iblk m c 1 t (ix2 o' k) = (V m c main_arg1 : SProto.Idx → EReal) (ix2 o' k) := by
    intro o' k
    show V m c main_arg1 (((cfg0.win 1).blk t).view.emb (ix2 o' k)) = _
    refine congrArg (V m c main_arg1) (funext fun a => Fin.ext ?_)
    match a with
    | ⟨0, _⟩ => show win0_1.index t (0 : Fin 2) * 64 + 1 * o'.val = o'.val; omega
    | ⟨1, _⟩ => show win0_1.index t (1 : Fin 2) * 75 + 1 * k.val = k.val; omega
  show tileVal _ (iblk m c 1 t) (ix4 u o r z)
      = rbfDist (V m c main_v0) (V m c main_arg1) (((cfg0.win 2).blk t).view.emb (ix4 u o r z))
  refine (tile_dist _ _ (V m c main_v0) (V m c main_arg1) (⟨t.val / 7, by omega⟩ : Fin 32) (⟨t.val % 7, by omega⟩ : Fin 7) hX hW u o r z).trans ?_
  refine congrArg (rbfDist (V m c main_v0) (V m c main_arg1)) (funext fun a => Fin.ext ?_)
  match a with
  | ⟨0, _⟩ => show t.val / 7 = win0_2.index t (0 : Fin 4) * 1 + 1 * u.val; omega
  | ⟨1, _⟩ => show o.val = win0_2.index t (1 : Fin 4) * 64 + 1 * o.val; omega
  | ⟨2, _⟩ => show 32 * (t.val % 7) + r.val = win0_2.index t (2 : Fin 4) * 32 + 1 * r.val; omega
  | ⟨3, _⟩ => show z.val = win0_2.index t (3 : Fin 4) * 224 + 1 * z.val; omega

/-- An index of the result is in point `t`'s block iff each coordinate is in the block's range on its axis. -/
theorem mem_blk (t : Fin cfg0.N) (i : S32x64x224x224.Idx) :
    i ∈ ((cfg0.win 2).blk t).view.set ↔ ∀ a : Fin 4, win0_2.index t a * S1x64x32x224.size a ≤ (i a).val
      ∧ (i a).val < win0_2.index t a * S1x64x32x224.size a + S1x64x32x224.size a := by
  show i ∈ ((View.whole main_v1).slice (win0_2.rect t)).set ↔ _
  rw [View.set_slice_whole, Rect.mem_set_unit]
  exact Iff.rfl

/-- The result array after the run is the distance map. -/
theorem final_eq (c : Dev nD) : (dats m 0 c).arrAt 2 cfg0.N = rbfDist (V m c main_v0) (V m c main_arg1) :=
  (dats m 0 c).arrAt_eq_of_cover 2 (rbfDist (V m c main_v0) (V m c main_arg1)) (fun t _ => flushed_eq m c t) fun i => by
    have hN : cfg0.N = 224 := N_0
    have h0 : (i 0).val < 32 := (i 0).isLt
    have h1 : (i 1).val < 64 := (i 1).isLt
    have h2 : (i 2).val < 224 := (i 2).isLt
    have h3 : (i 3).val < 224 := (i 3).isLt
    refine ⟨⟨(i 0).val * 7 + (i 2).val / 32, by omega⟩, flush0_2 _, ?_⟩
    rw [mem_blk]
    obtain ⟨-, -, -, -, -, -, c0, c1, c2, c3, -, -, -, -⟩ := idx_facts ⟨(i 0).val * 7 + (i 2).val / 32, by omega⟩
    intro a
    match a with
    | ⟨0, _⟩ =>
      show win0_2.index _ (0 : Fin 4) * 1 ≤ (i 0).val ∧ (i 0).val < win0_2.index _ (0 : Fin 4) * 1 + 1
      rw [c0]; show ((i 0).val * 7 + (i 2).val / 32) / 7 * 1 ≤ (i 0).val ∧ (i 0).val < ((i 0).val * 7 + (i 2).val / 32) / 7 * 1 + 1
      omega
    | ⟨1, _⟩ =>
      show win0_2.index _ (1 : Fin 4) * 64 ≤ (i 1).val ∧ (i 1).val < win0_2.index _ (1 : Fin 4) * 64 + 64
      rw [c1]; omega
    | ⟨2, _⟩ =>
      show win0_2.index _ (2 : Fin 4) * 32 ≤ (i 2).val ∧ (i 2).val < win0_2.index _ (2 : Fin 4) * 32 + 32
      rw [c2]; show ((i 0).val * 7 + (i 2).val / 32) % 7 * 32 ≤ (i 2).val ∧ (i 2).val < ((i 0).val * 7 + (i 2).val / 32) % 7 * 32 + 32
      omega
    | ⟨3, _⟩ =>
      show win0_2.index _ (3 : Fin 4) * 224 ≤ (i 3).val ∧ (i 3).val < win0_2.index _ (3 : Fin 4) * 224 + 224
      rw [c3]; omega

/-- The image batch padded by two zeros on each side of its two picture axes. -/
def padOf (x : S32x3x224x224.Idx → EReal) : S32x3x228x228.Idx → EReal :=
  pad S32x3x228x228 ![0, 0, 2, 2] ![0, 0, 2, 2] ![0, 0, 0, 0] x (sitofp (F := Ideal) .f32 (constantI S_ 32 0#32))
    pads_S32x3x224x224_S32x3x228x228_000_000_220_220 h_S_

/-- What the region finds as its first operand: the padded argument. -/
theorem padded_eq (c : Dev nD) :
    (V m c main_v0 : S32x3x228x228.Idx → EReal) = padOf (m ((c : Thread nD τ).loc main_arg0)) := by
  dsimp only [Gen.V]
  simp only [Gen.hostOps0, Gen.hostOps0_1, List.flatten_cons, List.flatten_nil, List.append_nil, List.cons_append,
    List.nil_append]
  after_results
  rfl

/-- The run: the result array ends as the distance map of the padded first argument and the second; the arguments are
    unchanged. -/
theorem run : θ_run defs (onTc (τ := τ) (main (F := Ideal))) ⟨m, fun _ => 0, ρ⟩ fun r => ∀ c : Dev nD,
      r.2.mem ((c : Thread nD τ).loc main_v1)
          = rbfDist (padOf (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final_eq m c).trans (by rw [padded_eq, V_main_arg1])), (h c).2⟩)
    (Cert.KernelIdeal.Value.run_blocks m ρ)

end Cert.RbfKernel

end
-- ==== Proof.RefStages.lean ====
/-
  The reference's window tensor, read at an index.

  From the padded batch `xp : [32, 3, 228, 228]` the reference takes the 25 shifted copies `xp[:, :, a : a + 224, b : b + 224]`
  (`a, b < 5`), gives each a unit axis in third place, stacks them along it (16 of them, then 9, then the two stacks end to
  end), collapses (channel, offset) to one axis of 75 and the picture to one axis of 50176, and swaps the last two axes.
  Entry `(b, h * 224 + w, k)` of the result is therefore the padded batch at image `b`, channel `k / 25`, row
  `h + (k % 25) / 5`, column `w + k % 5`: entry `k` of the window at `(h, w)`.
-/
import proofs.«140928_j40114994544664_2_alg».proof.ReferenceIdeal
import proofs.«140928_j40114994544664_2_alg».proof.Proof.Gen.ReferenceIdeal
import proofs.«140928_j40114994544664_2_alg».proof.Proof.Spec
import Idealize.ShloMosaic.Lib.Pipeline.Value
import Idealize.ShloMosaic.Lib.ValueIdx

noncomputable section

namespace Cert.RbfRef

open Cert.ReferenceIdeal Cert.ReferenceIdeal.Gen Cert.RbfSpec
open Idealize.ShloMosaic Idealize.ShloMosaic.ValueIdx

/-- The image batch padded by two zeros on each side of its two picture axes. -/
def padded (x : S32x3x224x224.Idx → EReal) : S32x3x228x228.Idx → EReal :=
  pad S32x3x228x228 ![0, 0, 2, 2] ![0, 0, 2, 2] ![0, 0, 0, 0] x (sitofp (F := Ideal) .f32 (constantI S_ 32 0#32))
    pads_S32x3x224x224_S32x3x228x228_000_000_220_220 h_S_

/-- A 224 × 224 picture fits in the padded one at any offset up to 4 on the two picture axes. -/
theorem slices_of_le (a b : Nat) (ha : a ≤ 4) (hb : b ≤ 4) : S32x3x228x228.Slices ![0, 0, a, b] S32x3x224x224 :=
  ⟨rfl, fun c => by
    match c with
    | ⟨0, _⟩ => show 0 + 32 ≤ 32; omega
    | ⟨1, _⟩ => show 0 + 3 ≤ 3; omega
    | ⟨2, _⟩ => show a + 224 ≤ 228; omega
    | ⟨3, _⟩ => show b + 224 ≤ 228; omega⟩

/-- The copy of the padded batch shifted by `(a, b)` on the picture axes, with a unit axis put in third place. -/
def shifted (xp : S32x3x228x228.Idx → EReal) (a b : Nat) (h : S32x3x228x228.Slices ![0, 0, a, b] S32x3x224x224) :
    S32x3x1x224x224.Idx → EReal :=
  broadcastInDim S32x3x1x224x224 ![0, 1, 3, 4] bcast_S32x3x224x224_S32x3x1x224x224_0_1_3_4
    (extractStridedSlice S32x3x224x224 ![0, 0, a, b] xp h)

/-- Read at an index: the padded batch at the same image and channel, the picture coordinates moved by `(a, b)`. -/
theorem shifted_apply (xp : S32x3x228x228.Idx → EReal) (a b : Nat) (h : S32x3x228x228.Slices ![0, 0, a, b] S32x3x224x224)
    (j : S32x3x1x224x224.Idx) (k : S32x3x228x228.Idx)
    (h0 : (k 0).val = (j 0).val) (h1 : (k 1).val = (j 1).val) (h2 : (k 2).val = a + (j 3).val)
    (h3 : (k 3).val = b + (j 4).val) : shifted xp a b h j = xp k := by
  unfold shifted
  rw [broadcastInDim_apply _ bcast_S32x3x224x224_S32x3x1x224x224_0_1_3_4 _ j (ix4 (j 0) (j 1) (j 3) (j 4)) (fun c => by
    match c with
    | ⟨0, _⟩ => show (j 0).val = if (32 : Nat) = 1 then 0 else (j 0).val; rw [if_neg (by decide)]
    | ⟨1, _⟩ => show (j 1).val = if (3 : Nat) = 1 then 0 else (j 1).val; rw [if_neg (by decide)]
    | ⟨2, _⟩ => show (j 3).val = if (224 : Nat) = 1 then 0 else (j 3).val; rw [if_neg (by decide)]
    | ⟨3, _⟩ => show (j 4).val = if (224 : Nat) = 1 then 0 else (j 4).val; rw [if_neg (by decide)])]
  exact extractStridedSlice_apply _ xp h _ k (fun c => by
    match c with
    | ⟨0, _⟩ => show (k 0).val = 0 + (j 0).val; omega
    | ⟨1, _⟩ => show (k 1).val = 0 + (j 1).val; omega
    | ⟨2, _⟩ => show (k 2).val = a + (j 3).val; omega
    | ⟨3, _⟩ => show (k 3).val = b + (j 4).val; omega)

/-- Copy number `n` of the 25, in the order the reference stacks them: shift `(n / 5, n % 5)`. -/
def copy (xp : S32x3x228x228.Idx → EReal) (n : Nat) (hn : n < 25) : S32x3x1x224x224.Idx → EReal :=
  shifted xp (n / 5) (n % 5) (slices_of_le _ _ (by omega) (by omega))

variable (xp : S32x3x228x228.Idx → EReal)

/-- The copies 0 … 15 and the copies 16 … 24 each join along the third axis. -/
theorem first_join : Shape.Concatenates
    ((List.ofFn fun n : Fin 16 => (⟨S32x3x1x224x224, copy xp n.val (by have := n.isLt; omega)⟩ :
        (s : Shape) × (s.Idx → EReal))).map (·.1)) S32x3x16x224x224 2 :=
  concatenates_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x16x224x224_d2
theorem second_join : Shape.Concatenates
    ((List.ofFn fun n : Fin 9 => (⟨S32x3x1x224x224, copy xp (16 + n.val) (by have := n.isLt; omega)⟩ :
        (s : Shape) × (s.Idx → EReal))).map (·.1)) S32x3x9x224x224 2 :=
  concatenates_S32x3x1x224x224_S32x3x1x224x224_S32x3x1x224x224_S32x3x1x224x224_S32x3x1x224x224_S32x3x1x224x224_S32x3x1x224x224_S32x3x1x224x224_S32x3x1x224x224_S32x3x9x224x224_d2

/-- The first stack, the second, and the two end to end. -/
def stackA : S32x3x16x224x224.Idx → EReal :=
  concatenate S32x3x16x224x224 2
    [⟨S32x3x1x224x224, copy xp 0 (by decide)⟩, ⟨S32x3x1x224x224, copy xp 1 (by decide)⟩, ⟨S32x3x1x224x224, copy xp 2 (by decide)⟩, ⟨S32x3x1x224x224, copy xp 3 (by decide)⟩, ⟨S32x3x1x224x224, copy xp 4 (by decide)⟩, ⟨S32x3x1x224x224, copy xp 5 (by decide)⟩, ⟨S32x3x1x224x224, copy xp 6 (by decide)⟩, ⟨S32x3x1x224x224, copy xp 7 (by decide)⟩, ⟨S32x3x1x224x224, copy xp 8 (by decide)⟩, ⟨S32x3x1x224x224, copy xp 9 (by decide)⟩, ⟨S32x3x1x224x224, copy xp 10 (by decide)⟩, ⟨S32x3x1x224x224, copy xp 11 (by decide)⟩, ⟨S32x3x1x224x224, copy xp 12 (by decide)⟩, ⟨S32x3x1x224x224, copy xp 13 (by decide)⟩, ⟨S32x3x1x224x224, copy xp 14 (by decide)⟩, ⟨S32x3x1x224x224, copy xp 15 (by decide)⟩]
    concatenates_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x16x224x224_d2
def stackB : S32x3x9x224x224.Idx → EReal :=
  concatenate S32x3x9x224x224 2
    [⟨S32x3x1x224x224, copy xp 16 (by decide)⟩, ⟨S32x3x1x224x224, copy xp 17 (by decide)⟩, ⟨S32x3x1x224x224, copy xp 18 (by decide)⟩, ⟨S32x3x1x224x224, copy xp 19 (by decide)⟩, ⟨S32x3x1x224x224, copy xp 20 (by decide)⟩, ⟨S32x3x1x224x224, copy xp 21 (by decide)⟩, ⟨S32x3x1x224x224, copy xp 22 (by decide)⟩, ⟨S32x3x1x224x224, copy xp 23 (by decide)⟩, ⟨S32x3x1x224x224, copy xp 24 (by decide)⟩]
    concatenates_S32x3x1x224x224_S32x3x1x224x224_S32x3x1x224x224_S32x3x1x224x224_S32x3x1x224x224_S32x3x1x224x224_S32x3x1x224x224_S32x3x1x224x224_S32x3x1x224x224_S32x3x9x224x224_d2

/-- The two stacks with their copies listed by number. -/
theorem stackA_eq : stackA xp = concatenate S32x3x16x224x224 2
    (List.ofFn fun n : Fin 16 => (⟨S32x3x1x224x224, copy xp n.val (by have := n.isLt; omega)⟩ : (s : Shape) × (s.Idx → EReal)))
    (first_join xp) := rfl
theorem stackB_eq : stackB xp = concatenate S32x3x9x224x224 2
    (List.ofFn fun n : Fin 9 => (⟨S32x3x1x224x224, copy xp (16 + n.val) (by have := n.isLt; omega)⟩ : (s : Shape) × (s.Idx → EReal)))
    (second_join xp) := rfl
def stacked : S32x3x25x224x224.Idx → EReal :=
  concatenate S32x3x25x224x224 2 [⟨S32x3x16x224x224, stackA xp⟩, ⟨S32x3x9x224x224, stackB xp⟩]
    concatenates_S32x3x16x224x224_S32x3x9x224x224_S32x3x25x224x224_d2

/-- The 25 stacked copies at an index: copy `j 2`, so the padded batch moved by `((j 2) / 5, (j 2) % 5)`. -/
theorem stacked_apply (j : S32x3x25x224x224.Idx) (k : S32x3x228x228.Idx)
    (h0 : (k 0).val = (j 0).val) (h1 : (k 1).val = (j 1).val) (h2 : (k 2).val = (j 3).val + (j 2).val / 5)
    (h3 : (k 3).val = (j 4).val + (j 2).val % 5) :
    stacked xp j = xp k := by
  have hj2 : (j 2).val < 25 := (j 2).isLt
  unfold stacked
  by_cases hlt : (j 2).val < 16
  · -- in the first stack
    rw [concatenate_pair_apply_left (t := S32x3x25x224x224) (s₁ := S32x3x16x224x224) (s₂ := S32x3x9x224x224) (2 : Fin 5) _ _ _ j rfl (ix5 (j 0) (j 1) ⟨(j 2).val, hlt⟩ (j 3) (j 4)) (fun b => by
      match b with
      | ⟨0, _⟩ => rfl
      | ⟨1, _⟩ => rfl
      | ⟨2, _⟩ => rfl
      | ⟨3, _⟩ => rfl
      | ⟨4, _⟩ => rfl)]
    rw [stackA_eq]
    rw [concatenate_ofFn_unit_apply (t := S32x3x16x224x224) (s₁ := S32x3x1x224x224) (2 : Fin 5) _ _ rfl rfl _ ⟨(j 2).val, hlt⟩ rfl (ix5 (j 0) (j 1) 0 (j 3) (j 4)) (fun b hb => by
      match b with
      | ⟨0, _⟩ => rfl
      | ⟨1, _⟩ => rfl
      | ⟨2, _⟩ => exact absurd rfl hb
      | ⟨3, _⟩ => rfl
      | ⟨4, _⟩ => rfl)]
    exact shifted_apply _ _ _ _ _ k h0 h1 (by show (k 2).val = (j 2).val / 5 + (j 3).val; omega)
      (by show (k 3).val = (j 2).val % 5 + (j 4).val; omega)
  · -- in the second stack
    have hge : 16 ≤ (j 2).val := Nat.not_lt.mp hlt
    rw [concatenate_pair_apply_right (t := S32x3x25x224x224) (s₁ := S32x3x16x224x224) (s₂ := S32x3x9x224x224) (2 : Fin 5) _ _ _ j rfl rfl (ix5 (j 0) (j 1) ⟨(j 2).val - 16, by omega⟩ (j 3) (j 4)) (fun b hb => by
      match b with
      | ⟨0, _⟩ => rfl
      | ⟨1, _⟩ => rfl
      | ⟨2, _⟩ => exact absurd rfl hb
      | ⟨3, _⟩ => rfl
      | ⟨4, _⟩ => rfl) (by show (j 2).val - 16 + 16 = (j 2).val; omega)]
    rw [stackB_eq]
    rw [concatenate_ofFn_unit_apply (t := S32x3x9x224x224) (s₁ := S32x3x1x224x224) (2 : Fin 5) _ _ rfl rfl _ ⟨(j 2).val - 16, by omega⟩ rfl (ix5 (j 0) (j 1) 0 (j 3) (j 4)) (fun b hb => by
      match b with
      | ⟨0, _⟩ => rfl
      | ⟨1, _⟩ => rfl
      | ⟨2, _⟩ => exact absurd rfl hb
      | ⟨3, _⟩ => rfl
      | ⟨4, _⟩ => rfl)]
    exact shifted_apply _ _ _ _ _ k h0 h1
      (by show (k 2).val = (16 + ((j 2).val - 16)) / 5 + (j 3).val; rw [show 16 + ((j 2).val - 16) = (j 2).val by omega]; omega)
      (by show (k 3).val = (16 + ((j 2).val - 16)) % 5 + (j 4).val; rw [show 16 + ((j 2).val - 16) = (j 2).val by omega]; omega)

/-- The window tensor: the stacked copies collapsed to `[32, 75, 50176]`, its last two axes swapped. -/
def windows : FVec Ideal S32x50176x75 .f32 :=
  transpose S32x50176x75 [0, 2, 1]
    (shapeCast S32x75x50176 (stacked xp) shapeCasts_S32x3x25x224x224_S32x75x50176)
    transposes_S32x75x50176_S32x50176x75_0_2_1

/-- The window tensor at `(b, h * 224 + w, k)` is entry `k` of the window at `(h, w)` of image `b`. -/
theorem windows_apply (b : Fin 32) (h w : Fin 224) (k : Fin 75) (l : Fin 50176) (hl : l.val = h.val * 224 + w.val) :
    windows xp (ix3 b l k) = win xp b h w k := by
  have hb := b.isLt; have hh := h.isLt; have hw := w.isLt; have hk := k.isLt
  unfold windows
  rw [transpose_apply [0, 2, 1] _ transposes_S32x75x50176_S32x50176x75_0_2_1 (ix3 b l k) (ix3 b k l) (fun bb => by
    match bb with
    | ⟨0, _⟩ => rfl
    | ⟨1, _⟩ => rfl
    | ⟨2, _⟩ => rfl)]
  rw [shapeCast_apply _ shapeCasts_S32x3x25x224x224_S32x75x50176 (ix3 b k l)
    (ix5 b (⟨k.val / 25, by omega⟩ : Fin 3) (⟨k.val % 25, by omega⟩ : Fin 25) h w) (by
      rw [Shape.rowMajor_val_five, Shape.rowMajor_val_three]
      show (((b.val * 3 + k.val / 25) * 25 + k.val % 25) * 224 + h.val) * 224 + w.val = (b.val * 75 + k.val) * 50176 + l.val
      omega)]
  unfold win
  exact stacked_apply xp _ (winIdx b h w k) rfl rfl rfl (by show w.val + k.val % 5 = w.val + k.val % 25 % 5; omega)

end Cert.RbfRef

end
-- ==== Proof.RefValue.lean ====
/-
  The reference computes the distance map.

  Over the window tensor `[32, 50176, 75]` the reference takes `pn`, the sum over the 75 window entries of their squares,
  `wn`, the sum over each prototype row of its squares (both host sums started from the zero word, the real 0), and
  `dots`, the contraction of the window with the prototype rows; forms `√ max ((pn + wn) − 2 · dots) 0` at `(b, l, o)`
  (`pn` repeated along `o`, `wn` along `b` and `l`); swaps the last two axes and splits `l = h * 224 + w`. At result index
  `(b, o, h, w)` that is the specification's distance, term by term.
-/
import proofs.«140928_j40114994544664_2_alg».proof.Proof.RefStages
import Idealize.ShloMosaic.PureOps.Ideal.Laws

set_option maxRecDepth 8192

noncomputable section

namespace Cert.RbfRef

open Cert.ReferenceIdeal Cert.ReferenceIdeal.Gen Cert.RbfSpec
open Idealize.ShloMosaic Idealize.ShloMosaic.ValueIdx

/-- The contraction `[32, 50176, 75] × [64, 75] → [32, 50176, 64]` over the 75. -/
abbrev dotR : DotDims S32x50176x75 S64x75 S32x50176x64 := dot_S32x50176x75_S64x75_S32x50176x64_2_1_01_0_n_n

variable (xp : S32x3x228x228.Idx → EReal) (x1 : FVec Ideal S64x75 .f32)

/-- The reference's result, from the padded batch and the prototypes. -/
def refVal : FVec Ideal S32x64x224x224 .f32 :=
  shapeCast S32x64x224x224
    (transpose S32x64x50176 [0, 2, 1]
      (Host.sqrt (F := Ideal) (maximumf
        (subf
          (addf
            (broadcastInDim S32x50176x64 ![0, 1, 2] bcast_S32x50176x1_S32x50176x64_0_1_2
              (broadcastInDim S32x50176x1 ![0, 1] bcast_S32x50176_S32x50176x1_0_1
                (Host.reduceAdd (F := Ideal) (mulf (windows xp) (windows xp)) (constant (F := Ideal) S_ .f32 0x00000000#32)
                  reducesTo_S32x50176x75_S32x50176_d2 h_S_)))
            (broadcastInDim S32x50176x64 ![0, 1, 2] bcast_S1x1x64_S32x50176x64_0_1_2
              (broadcastInDim S1x1x64 ![2] bcast_S64_S1x1x64_2
                (Host.reduceAdd (F := Ideal) (mulf x1 x1) (constant (F := Ideal) S_ .f32 0x00000000#32)
                  reducesTo_S64x75_S64_d1 h_S_))))
          (mulf (broadcastInDim S32x50176x64 ![] bcast_S_S32x50176x64 (constant (F := Ideal) S_ .f32 0x40000000#32))
            (Host.dotGeneral (F := Ideal) dotR none (windows xp) x1)))
        (broadcastInDim S32x50176x64 ![] bcast_S_S32x50176x64 (constant (F := Ideal) S_ .f32 0x00000000#32))))
      transposes_S32x50176x64_S32x64x50176_0_2_1)
    shapeCasts_S32x64x50176_S32x64x224x224

/-- The host's square root of an array, at an index. -/
theorem hostSqrt_apply {s : Shape} (v : FVec Ideal s .f32) (i : s.Idx) : Host.sqrt (F := Ideal) v i = Ideal.sqrt (v i) := rfl

/-- A map on `(b, l)` repeated along the 64 channels. -/
theorem rep_channels (v : FVec Ideal S32x50176 .f32) (b : Fin 32) (l : Fin 50176) (o : Fin 64) :
    broadcastInDim S32x50176x64 ![0, 1, 2] bcast_S32x50176x1_S32x50176x64_0_1_2
        (broadcastInDim S32x50176x1 ![0, 1] bcast_S32x50176_S32x50176x1_0_1 v) (ix3 b l o) = v (ix2 b l) := by
  rw [broadcastInDim_apply _ bcast_S32x50176x1_S32x50176x64_0_1_2 _ (ix3 b l o) (ix3 b l (0 : Fin 1)) (fun a => by
    match a with
    | ⟨0, _⟩ => show b.val = if (32 : Nat) = 1 then 0 else b.val; rw [if_neg (by decide)]
    | ⟨1, _⟩ => show l.val = if (50176 : Nat) = 1 then 0 else l.val; rw [if_neg (by decide)]
    | ⟨2, _⟩ => show 0 = if (1 : Nat) = 1 then 0 else o.val; rw [if_pos rfl])]
  exact broadcastInDim_apply _ bcast_S32x50176_S32x50176x1_0_1 v (ix3 b l (0 : Fin 1)) (ix2 b l) (fun a => by
    match a with
    | ⟨0, _⟩ => show b.val = if (32 : Nat) = 1 then 0 else b.val; rw [if_neg (by decide)]
    | ⟨1, _⟩ => show l.val = if (50176 : Nat) = 1 then 0 else l.val; rw [if_neg (by decide)])

/-- A map on the 64 channels repeated along images and positions. -/
theorem rep_positions (v : FVec Ideal S64 .f32) (b : Fin 32) (l : Fin 50176) (o : Fin 64) :
    broadcastInDim S32x50176x64 ![0, 1, 2] bcast_S1x1x64_S32x50176x64_0_1_2
        (broadcastInDim S1x1x64 ![2] bcast_S64_S1x1x64_2 v) (ix3 b l o) = v (ix1 o) := by
  rw [broadcastInDim_apply _ bcast_S1x1x64_S32x50176x64_0_1_2 _ (ix3 b l o) (ix3 (0 : Fin 1) (0 : Fin 1) o) (fun a => by
    match a with
    | ⟨0, _⟩ => show 0 = if (1 : Nat) = 1 then 0 else b.val; rw [if_pos rfl]
    | ⟨1, _⟩ => show 0 = if (1 : Nat) = 1 then 0 else l.val; rw [if_pos rfl]
    | ⟨2, _⟩ => show o.val = if (64 : Nat) = 1 then 0 else o.val; rw [if_neg (by decide)])]
  exact broadcastInDim_apply _ bcast_S64_S1x1x64_2 v (ix3 (0 : Fin 1) (0 : Fin 1) o) (ix1 o) (fun a => by
    match a with
    | ⟨0, _⟩ => show o.val = if (64 : Nat) = 1 then 0 else o.val; rw [if_neg (by decide)])

/-- A scalar repeated everywhere. -/
theorem rep_scalar (v : FVec Ideal S_ .f32) (i : S32x50176x64.Idx) :
    broadcastInDim S32x50176x64 ![] bcast_S_S32x50176x64 v i = v ix0 :=
  broadcastInDim_apply _ bcast_S_S32x50176x64 v i ix0 (fun a => a.elim0)

/-- A host sum over the last axis of a `[32, 50176, 75]` array, started from the zero word: the plain sum. -/
theorem sum_last (y : FVec Ideal S32x50176x75 .f32) (b : Fin 32) (l : Fin 50176) :
    Host.reduceAdd (F := Ideal) y (constant (F := Ideal) S_ .f32 0x00000000#32) reducesTo_S32x50176x75_S32x50176_d2 h_S_ (ix2 b l)
      = ∑ k : Fin 75, y (ix3 b l k) := by
  simp only [Host.reduceAdd, Ideal.hostReduceAdd_def]
  rw [Ideal.hostReduceAdd_single reducesTo_S32x50176x75_S32x50176_d2 (by decide)]
  show Ideal.ofBits .f32 0x00000000#32 + _ = _
  rw [Ideal.ofBits_zero_f32, zero_add]
  refine Finset.sum_congr rfl fun k _ => ?_
  exact congrArg y (funext fun a => Fin.ext (by
    match a with
    | ⟨0, _⟩ => rfl
    | ⟨1, _⟩ => rfl
    | ⟨2, _⟩ => rfl))

/-- The same over the rows of a `[64, 75]` array. -/
theorem sum_row (y : FVec Ideal S64x75 .f32) (o : Fin 64) :
    Host.reduceAdd (F := Ideal) y (constant (F := Ideal) S_ .f32 0x00000000#32) reducesTo_S64x75_S64_d1 h_S_ (ix1 o)
      = ∑ k : Fin 75, y (ix2 o k) := by
  simp only [Host.reduceAdd, Ideal.hostReduceAdd_def]
  rw [Ideal.hostReduceAdd_single reducesTo_S64x75_S64_d1 (by decide)]
  show Ideal.ofBits .f32 0x00000000#32 + _ = _
  rw [Ideal.ofBits_zero_f32, zero_add]
  refine Finset.sum_congr rfl fun k _ => ?_
  exact congrArg y (funext fun a => Fin.ext (by
    match a with
    | ⟨0, _⟩ => rfl
    | ⟨1, _⟩ => rfl))

/-- The squared norm of the window at `(h, w)` of image `b`. -/
theorem window_norm (b : Fin 32) (h w : Fin 224) (l : Fin 50176) (hl : l.val = h.val * 224 + w.val) :
    Host.reduceAdd (F := Ideal) (mulf (windows xp) (windows xp)) (constant (F := Ideal) S_ .f32 0x00000000#32)
        reducesTo_S32x50176x75_S32x50176_d2 h_S_ (ix2 b l)
      = ∑ k : Fin 75, win xp b h w k * win xp b h w k := by
  rw [sum_last]
  refine Finset.sum_congr rfl fun k _ => ?_
  rw [mulf_apply, windows_apply xp b h w k l hl]

/-- The squared norm of prototype row `o`. -/
theorem proto_norm (o : Fin 64) :
    Host.reduceAdd (F := Ideal) (mulf x1 x1) (constant (F := Ideal) S_ .f32 0x00000000#32) reducesTo_S64x75_S64_d1 h_S_ (ix1 o)
      = ∑ k : Fin 75, x1 (ix2 o k) * x1 (ix2 o k) := by
  rw [sum_row]
  refine Finset.sum_congr rfl fun k _ => ?_
  rw [mulf_apply]

/-- The operand indices of the contraction at output `(b, l, o)` and contracted entry `k`. -/
theorem lhs_idx (b : Fin 32) (l : Fin 50176) (o : Fin 64) (k : Fin 75) :
    dotR.lhsIdx (ix3 b l o) ((contrEquiv1 dotR 75 rfl rfl).symm k) = ix3 b l k := by
  have hk := contrEquiv1_symm_val dotR 75 rfl rfl k
  refine funext fun a => Fin.ext ?_
  match a with
  | ⟨0, _⟩ =>
    show (dotR.lhsIdx (ix3 b l o) _ 0).val = b.val
    unfold DotDims.lhsIdx
    rw [dif_neg (show ¬(0 : Fin S32x50176x75.rank) ∈ dotR.lhsBatch by decide),
      dif_pos (show (0 : Fin S32x50176x75.rank) ∈ dotR.lhsNonContracting by decide)]
    rfl
  | ⟨1, _⟩ =>
    show (dotR.lhsIdx (ix3 b l o) _ 1).val = l.val
    unfold DotDims.lhsIdx
    rw [dif_neg (show ¬(1 : Fin S32x50176x75.rank) ∈ dotR.lhsBatch by decide),
      dif_pos (show (1 : Fin S32x50176x75.rank) ∈ dotR.lhsNonContracting by decide)]
    rfl
  | ⟨2, _⟩ => exact (dotR.lhsIdx_val_of_single rfl (ix3 b l o) _).trans hk

theorem rhs_idx (b : Fin 32) (l : Fin 50176) (o : Fin 64) (k : Fin 75) :
    dotR.rhsIdx (ix3 b l o) ((contrEquiv1 dotR 75 rfl rfl).symm k) = ix2 o k := by
  have hk := contrEquiv1_symm_val dotR 75 rfl rfl k
  refine funext fun a => Fin.ext ?_
  match a with
  | ⟨0, _⟩ =>
    show (dotR.rhsIdx (ix3 b l o) _ 0).val = o.val
    unfold DotDims.rhsIdx
    rw [dif_neg (show ¬(0 : Fin S64x75.rank) ∈ dotR.rhsBatch by decide),
      dif_pos (show (0 : Fin S64x75.rank) ∈ dotR.rhsNonContracting by decide)]
    rfl
  | ⟨1, _⟩ => exact (dotR.rhsIdx_val_of_single rfl (ix3 b l o) _).trans hk

/-- The contraction at `(b, l, o)`: the sum over the 75 contracted entries. -/
theorem contract_apply (y : FVec Ideal S32x50176x75 .f32) (z : FVec Ideal S64x75 .f32) (b : Fin 32) (l : Fin 50176) (o : Fin 64) :
    Host.dotGeneral (F := Ideal) dotR none y z (ix3 b l o) = ∑ k : Fin 75, y (ix3 b l k) * z (ix2 o k) := by
  simp only [Host.dotGeneral]
  rw [Ideal.dotGeneral_apply, ← Equiv.sum_comp (contrEquiv1 dotR 75 rfl rfl).symm]
  refine Finset.sum_congr rfl fun k _ => ?_
  rw [lhs_idx, rhs_idx]

/-- The inner product of that window with prototype row `o`. -/
theorem window_dot (b : Fin 32) (o : Fin 64) (h w : Fin 224) (l : Fin 50176) (hl : l.val = h.val * 224 + w.val) :
    Host.dotGeneral (F := Ideal) dotR none (windows xp) x1 (ix3 b l o) = ∑ k : Fin 75, win xp b h w k * x1 (ix2 o k) := by
  rw [contract_apply]
  refine Finset.sum_congr rfl fun k _ => ?_
  rw [windows_apply xp b h w k l hl]

/-- The reference's result is the distance map of the padded batch and the prototypes. -/
theorem reference_eq : refVal xp x1 = rbfDist xp x1 := by
  funext i
  obtain ⟨b, o, h, w, rfl⟩ : ∃ (b : Fin 32) (o : Fin 64) (h w : Fin 224), i = ix4 b o h w :=
    ⟨i 0, i 1, i 2, i 3, eq_ix4 i⟩
  have hb := b.isLt; have ho := o.isLt; have hh := h.isLt; have hw := w.isLt
  have hlt : h.val * 224 + w.val < 50176 := by omega
  unfold refVal
  rw [shapeCast_apply _ shapeCasts_S32x64x50176_S32x64x224x224 (ix4 b o h w) (ix3 b o (⟨h.val * 224 + w.val, hlt⟩ : Fin 50176)) (by
    rw [Shape.rowMajor_val_three, Shape.rowMajor_val_four]
    show (b.val * 64 + o.val) * 50176 + (h.val * 224 + w.val) = ((b.val * 64 + o.val) * 224 + h.val) * 224 + w.val
    omega)]
  rw [transpose_apply [0, 2, 1] _ transposes_S32x50176x64_S32x64x50176_0_2_1 (ix3 b o (⟨h.val * 224 + w.val, hlt⟩ : Fin 50176))
    (ix3 b (⟨h.val * 224 + w.val, hlt⟩ : Fin 50176) o) (fun bb => by
      match bb with
      | ⟨0, _⟩ => rfl
      | ⟨1, _⟩ => rfl
      | ⟨2, _⟩ => rfl)]
  rw [hostSqrt_apply, maximumf_apply, subf_apply, addf_apply, mulf_apply, rep_channels, rep_positions, rep_scalar, rep_scalar,
    window_norm xp b h w _ rfl, proto_norm x1 o, window_dot xp x1 b o h w _ rfl, constant_apply, constant_apply]
  rfl

end Cert.RbfRef

end
-- ==== Proof.RefOps.lean ====
/-
  The reference's `@main` as a list of operations.

  The reference is a straight line of 80 host operations: the zero word, the pad (a called function of two operations,
  standing in its call's place), the 25 slices and their 25 unit-axis broadcasts, the three joins, the collapse and the swap
  that give the window tensor, then the squares, the two sums, the contraction, the broadcasts, the sum, the doubling, the
  difference, the clamp, the square root, and the swap and split that give the result. Listed here in order, with the
  facts about the list that running it asks for: `@main` is the list run in order, no buffer or semaphore of the program
  is scoped, every operation touches TensorCore buffers only, and none allocates.
-/
import proofs.«140928_j40114994544664_2_alg».proof.ReferenceIdeal
import proofs.«140928_j40114994544664_2_alg».proof.Proof.Gen.ReferenceIdeal
import Idealize.ShloMosaic.Lib.StableHlo.Run
import Idealize.ShloMosaic.Lib.Tactic

noncomputable section

namespace Cert.RbfRef

open Cert.ReferenceIdeal Cert.ReferenceIdeal.Gen
open Idealize.ShloMosaic Idealize.ShloMosaic.TcCoe Idealize.SL.Sem Idealize.ShloMosaic.StableHlo
open Idealize.ShloMosaic.Tactic

variable {F : FTy → Type} [FloatOps F]

/-- `@main`'s 80 operations, in order. -/
abbrev ops : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S32x3x224x224, .f32⟩) main_arg0) (TRef.of (T := ⟨S_, .f32⟩) main_call0_v0) (TRef.of (T := ⟨S32x3x228x228, .f32⟩) main_v0) (fun x v => pad S32x3x228x228 ![0, 0, 2, 2] ![0, 0, 2, 2] ![0, 0, 0, 0] x v pads_S32x3x224x224_S32x3x228x228_000_000_220_220 h_S_),
    unary main_v0 main_v1 ((extractStridedSlice S32x3x224x224 ![0, 0, 0, 0] · slices_S32x3x228x228_S32x3x224x224_0_0_0_0) : (⟨S32x3x228x228, .f32⟩ : BufTy).Contents (Elt F) → (⟨S32x3x224x224, .f32⟩ : BufTy).Contents (Elt F)),
    unary main_v0 main_v2 ((extractStridedSlice S32x3x224x224 ![0, 0, 0, 1] · slices_S32x3x228x228_S32x3x224x224_0_0_0_1) : (⟨S32x3x228x228, .f32⟩ : BufTy).Contents (Elt F) → (⟨S32x3x224x224, .f32⟩ : BufTy).Contents (Elt F)),
    unary main_v0 main_v3 ((extractStridedSlice S32x3x224x224 ![0, 0, 0, 2] · slices_S32x3x228x228_S32x3x224x224_0_0_0_2) : (⟨S32x3x228x228, .f32⟩ : BufTy).Contents (Elt F) → (⟨S32x3x224x224, .f32⟩ : BufTy).Contents (Elt F)),
    unary main_v0 main_v4 ((extractStridedSlice S32x3x224x224 ![0, 0, 0, 3] · slices_S32x3x228x228_S32x3x224x224_0_0_0_3) : (⟨S32x3x228x228, .f32⟩ : BufTy).Contents (Elt F) → (⟨S32x3x224x224, .f32⟩ : BufTy).Contents (Elt F)),
    unary main_v0 main_v5 ((extractStridedSlice S32x3x224x224 ![0, 0, 0, 4] · slices_S32x3x228x228_S32x3x224x224_0_0_0_4) : (⟨S32x3x228x228, .f32⟩ : BufTy).Contents (Elt F) → (⟨S32x3x224x224, .f32⟩ : BufTy).Contents (Elt F)),
    unary main_v0 main_v6 ((extractStridedSlice S32x3x224x224 ![0, 0, 1, 0] · slices_S32x3x228x228_S32x3x224x224_0_0_1_0) : (⟨S32x3x228x228, .f32⟩ : BufTy).Contents (Elt F) → (⟨S32x3x224x224, .f32⟩ : BufTy).Contents (Elt F)),
    unary main_v0 main_v7 ((extractStridedSlice S32x3x224x224 ![0, 0, 1, 1] · slices_S32x3x228x228_S32x3x224x224_0_0_1_1) : (⟨S32x3x228x228, .f32⟩ : BufTy).Contents (Elt F) → (⟨S32x3x224x224, .f32⟩ : BufTy).Contents (Elt F)),
    unary main_v0 main_v8 ((extractStridedSlice S32x3x224x224 ![0, 0, 1, 2] · slices_S32x3x228x228_S32x3x224x224_0_0_1_2) : (⟨S32x3x228x228, .f32⟩ : BufTy).Contents (Elt F) → (⟨S32x3x224x224, .f32⟩ : BufTy).Contents (Elt F)),
    unary main_v0 main_v9 ((extractStridedSlice S32x3x224x224 ![0, 0, 1, 3] · slices_S32x3x228x228_S32x3x224x224_0_0_1_3) : (⟨S32x3x228x228, .f32⟩ : BufTy).Contents (Elt F) → (⟨S32x3x224x224, .f32⟩ : BufTy).Contents (Elt F)),
    unary main_v0 main_v10 ((extractStridedSlice S32x3x224x224 ![0, 0, 1, 4] · slices_S32x3x228x228_S32x3x224x224_0_0_1_4) : (⟨S32x3x228x228, .f32⟩ : BufTy).Contents (Elt F) → (⟨S32x3x224x224, .f32⟩ : BufTy).Contents (Elt F)),
    unary main_v0 main_v11 ((extractStridedSlice S32x3x224x224 ![0, 0, 2, 0] · slices_S32x3x228x228_S32x3x224x224_0_0_2_0) : (⟨S32x3x228x228, .f32⟩ : BufTy).Contents (Elt F) → (⟨S32x3x224x224, .f32⟩ : BufTy).Contents (Elt F)),
    unary main_v0 main_v12 ((extractStridedSlice S32x3x224x224 ![0, 0, 2, 1] · slices_S32x3x228x228_S32x3x224x224_0_0_2_1) : (⟨S32x3x228x228, .f32⟩ : BufTy).Contents (Elt F) → (⟨S32x3x224x224, .f32⟩ : BufTy).Contents (Elt F)),
    unary main_v0 main_v13 ((extractStridedSlice S32x3x224x224 ![0, 0, 2, 2] · slices_S32x3x228x228_S32x3x224x224_0_0_2_2) : (⟨S32x3x228x228, .f32⟩ : BufTy).Contents (Elt F) → (⟨S32x3x224x224, .f32⟩ : BufTy).Contents (Elt F)),
    unary main_v0 main_v14 ((extractStridedSlice S32x3x224x224 ![0, 0, 2, 3] · slices_S32x3x228x228_S32x3x224x224_0_0_2_3) : (⟨S32x3x228x228, .f32⟩ : BufTy).Contents (Elt F) → (⟨S32x3x224x224, .f32⟩ : BufTy).Contents (Elt F)),
    unary main_v0 main_v15 ((extractStridedSlice S32x3x224x224 ![0, 0, 2, 4] · slices_S32x3x228x228_S32x3x224x224_0_0_2_4) : (⟨S32x3x228x228, .f32⟩ : BufTy).Contents (Elt F) → (⟨S32x3x224x224, .f32⟩ : BufTy).Contents (Elt F)),
    unary main_v0 main_v16 ((extractStridedSlice S32x3x224x224 ![0, 0, 3, 0] · slices_S32x3x228x228_S32x3x224x224_0_0_3_0) : (⟨S32x3x228x228, .f32⟩ : BufTy).Contents (Elt F) → (⟨S32x3x224x224, .f32⟩ : BufTy).Contents (Elt F)),
    unary main_v0 main_v17 ((extractStridedSlice S32x3x224x224 ![0, 0, 3, 1] · slices_S32x3x228x228_S32x3x224x224_0_0_3_1) : (⟨S32x3x228x228, .f32⟩ : BufTy).Contents (Elt F) → (⟨S32x3x224x224, .f32⟩ : BufTy).Contents (Elt F)),
    unary main_v0 main_v18 ((extractStridedSlice S32x3x224x224 ![0, 0, 3, 2] · slices_S32x3x228x228_S32x3x224x224_0_0_3_2) : (⟨S32x3x228x228, .f32⟩ : BufTy).Contents (Elt F) → (⟨S32x3x224x224, .f32⟩ : BufTy).Contents (Elt F)),
    unary main_v0 main_v19 ((extractStridedSlice S32x3x224x224 ![0, 0, 3, 3] · slices_S32x3x228x228_S32x3x224x224_0_0_3_3) : (⟨S32x3x228x228, .f32⟩ : BufTy).Contents (Elt F) → (⟨S32x3x224x224, .f32⟩ : BufTy).Contents (Elt F)),
    unary main_v0 main_v20 ((extractStridedSlice S32x3x224x224 ![0, 0, 3, 4] · slices_S32x3x228x228_S32x3x224x224_0_0_3_4) : (⟨S32x3x228x228, .f32⟩ : BufTy).Contents (Elt F) → (⟨S32x3x224x224, .f32⟩ : BufTy).Contents (Elt F)),
    unary main_v0 main_v21 ((extractStridedSlice S32x3x224x224 ![0, 0, 4, 0] · slices_S32x3x228x228_S32x3x224x224_0_0_4_0) : (⟨S32x3x228x228, .f32⟩ : BufTy).Contents (Elt F) → (⟨S32x3x224x224, .f32⟩ : BufTy).Contents (Elt F)),
    unary main_v0 main_v22 ((extractStridedSlice S32x3x224x224 ![0, 0, 4, 1] · slices_S32x3x228x228_S32x3x224x224_0_0_4_1) : (⟨S32x3x228x228, .f32⟩ : BufTy).Contents (Elt F) → (⟨S32x3x224x224, .f32⟩ : BufTy).Contents (Elt F)),
    unary main_v0 main_v23 ((extractStridedSlice S32x3x224x224 ![0, 0, 4, 2] · slices_S32x3x228x228_S32x3x224x224_0_0_4_2) : (⟨S32x3x228x228, .f32⟩ : BufTy).Contents (Elt F) → (⟨S32x3x224x224, .f32⟩ : BufTy).Contents (Elt F)),
    unary main_v0 main_v24 ((extractStridedSlice S32x3x224x224 ![0, 0, 4, 3] · slices_S32x3x228x228_S32x3x224x224_0_0_4_3) : (⟨S32x3x228x228, .f32⟩ : BufTy).Contents (Elt F) → (⟨S32x3x224x224, .f32⟩ : BufTy).Contents (Elt F)),
    unary main_v0 main_v25 ((extractStridedSlice S32x3x224x224 ![0, 0, 4, 4] · slices_S32x3x228x228_S32x3x224x224_0_0_4_4) : (⟨S32x3x228x228, .f32⟩ : BufTy).Contents (Elt F) → (⟨S32x3x224x224, .f32⟩ : BufTy).Contents (Elt F)),
    unary main_v1 main_v26 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v2 main_v27 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v3 main_v28 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v4 main_v29 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v5 main_v30 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v6 main_v31 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v7 main_v32 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v8 main_v33 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v9 main_v34 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v10 main_v35 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v11 main_v36 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v12 main_v37 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v13 main_v38 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v14 main_v39 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v15 main_v40 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v16 main_v41 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v17 main_v42 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v18 main_v43 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v19 main_v44 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v20 main_v45 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v21 main_v46 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v22 main_v47 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v23 main_v48 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v24 main_v49 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v25 main_v50 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    nary ![main_v26, main_v27, main_v28, main_v29, main_v30, main_v31, main_v32, main_v33, main_v34, main_v35, main_v36, main_v37, main_v38, main_v39, main_v40, main_v41] main_v51 (fun u => concatenate S32x3x16x224x224 2 [⟨S32x3x1x224x224, u 0⟩, ⟨S32x3x1x224x224, u 1⟩, ⟨S32x3x1x224x224, u 2⟩, ⟨S32x3x1x224x224, u 3⟩, ⟨S32x3x1x224x224, u 4⟩, ⟨S32x3x1x224x224, u 5⟩, ⟨S32x3x1x224x224, u 6⟩, ⟨S32x3x1x224x224, u 7⟩, ⟨S32x3x1x224x224, u 8⟩, ⟨S32x3x1x224x224, u 9⟩, ⟨S32x3x1x224x224, u 10⟩, ⟨S32x3x1x224x224, u 11⟩, ⟨S32x3x1x224x224, u 12⟩, ⟨S32x3x1x224x224, u 13⟩, ⟨S32x3x1x224x224, u 14⟩, ⟨S32x3x1x224x224, u 15⟩] concatenates_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x16x224x224_d2),
    nary ![main_v42, main_v43, main_v44, main_v45, main_v46, main_v47, main_v48, main_v49, main_v50] main_v52 (fun u => concatenate S32x3x9x224x224 2 [⟨S32x3x1x224x224, u 0⟩, ⟨S32x3x1x224x224, u 1⟩, ⟨S32x3x1x224x224, u 2⟩, ⟨S32x3x1x224x224, u 3⟩, ⟨S32x3x1x224x224, u 4⟩, ⟨S32x3x1x224x224, u 5⟩, ⟨S32x3x1x224x224, u 6⟩, ⟨S32x3x1x224x224, u 7⟩, ⟨S32x3x1x224x224, u 8⟩] concatenates_S32x3x1x224x224_S32x3x1x224x224_S32x3x1x224x224_S32x3x1x224x224_S32x3x1x224x224_S32x3x1x224x224_S32x3x1x224x224_S32x3x1x224x224_S32x3x1x224x224_S32x3x9x224x224_d2),
    binary main_v51 main_v52 main_v53 ((fun a b => concatenate S32x3x25x224x224 2 [⟨S32x3x16x224x224, a⟩, ⟨S32x3x9x224x224, b⟩] concatenates_S32x3x16x224x224_S32x3x9x224x224_S32x3x25x224x224_d2) : (⟨S32x3x16x224x224, .f32⟩ : BufTy).Contents (Elt F) → (⟨S32x3x9x224x224, .f32⟩ : BufTy).Contents (Elt F) → (⟨S32x3x25x224x224, .f32⟩ : BufTy).Contents (Elt F)),
    reshape main_v53 main_v54 rfl shapeCasts_S32x3x25x224x224_S32x75x50176,
    unary main_v54 main_v55 ((transpose S32x50176x75 [0, 2, 1] · transposes_S32x75x50176_S32x50176x75_0_2_1) : (⟨S32x75x50176, .f32⟩ : BufTy).Contents (Elt F) → (⟨S32x50176x75, .f32⟩ : BufTy).Contents (Elt F)),
    binary main_v55 main_v55 main_v56 (mulf : (⟨S32x50176x75, .f32⟩ : BufTy).Contents (Elt F) → (⟨S32x50176x75, .f32⟩ : BufTy).Contents (Elt F) → (⟨S32x50176x75, .f32⟩ : BufTy).Contents (Elt F)),
    nullary main_cst (constant S_ .f32 0x00000000#32),
    binary main_v56 main_cst main_v57 ((fun x v => Host.reduceAdd x v reducesTo_S32x50176x75_S32x50176_d2 h_S_) : (⟨S32x50176x75, .f32⟩ : BufTy).Contents (Elt F) → (⟨S_, .f32⟩ : BufTy).Contents (Elt F) → (⟨S32x50176, .f32⟩ : BufTy).Contents (Elt F)),
    binary main_arg1 main_arg1 main_v58 (mulf : (⟨S64x75, .f32⟩ : BufTy).Contents (Elt F) → (⟨S64x75, .f32⟩ : BufTy).Contents (Elt F) → (⟨S64x75, .f32⟩ : BufTy).Contents (Elt F)),
    nullary main_cst_0 (constant S_ .f32 0x00000000#32),
    binary main_v58 main_cst_0 main_v59 ((fun x v => Host.reduceAdd x v reducesTo_S64x75_S64_d1 h_S_) : (⟨S64x75, .f32⟩ : BufTy).Contents (Elt F) → (⟨S_, .f32⟩ : BufTy).Contents (Elt F) → (⟨S64, .f32⟩ : BufTy).Contents (Elt F)),
    binary main_v55 main_arg1 main_v60 ((fun l r => Host.dotGeneral dot_S32x50176x75_S64x75_S32x50176x64_2_1_01_0_n_n none l r) : (⟨S32x50176x75, .f32⟩ : BufTy).Contents (Elt F) → (⟨S64x75, .f32⟩ : BufTy).Contents (Elt F) → (⟨S32x50176x64, .f32⟩ : BufTy).Contents (Elt F)),
    unary main_v57 main_v61 (broadcastInDim S32x50176x1 ![0, 1] bcast_S32x50176_S32x50176x1_0_1 : (⟨S32x50176, .f32⟩ : BufTy).Contents (Elt F) → (⟨S32x50176x1, .f32⟩ : BufTy).Contents (Elt F)),
    unary main_v59 main_v62 (broadcastInDim S1x1x64 ![2] bcast_S64_S1x1x64_2 : (⟨S64, .f32⟩ : BufTy).Contents (Elt F) → (⟨S1x1x64, .f32⟩ : BufTy).Contents (Elt F)),
    unary main_v61 main_v63 (broadcastInDim S32x50176x64 ![0, 1, 2] bcast_S32x50176x1_S32x50176x64_0_1_2 : (⟨S32x50176x1, .f32⟩ : BufTy).Contents (Elt F) → (⟨S32x50176x64, .f32⟩ : BufTy).Contents (Elt F)),
    unary main_v62 main_v64 (broadcastInDim S32x50176x64 ![0, 1, 2] bcast_S1x1x64_S32x50176x64_0_1_2 : (⟨S1x1x64, .f32⟩ : BufTy).Contents (Elt F) → (⟨S32x50176x64, .f32⟩ : BufTy).Contents (Elt F)),
    binary main_v63 main_v64 main_v65 (addf : (⟨S32x50176x64, .f32⟩ : BufTy).Contents (Elt F) → (⟨S32x50176x64, .f32⟩ : BufTy).Contents (Elt F) → (⟨S32x50176x64, .f32⟩ : BufTy).Contents (Elt F)),
    nullary main_cst_1 (constant S_ .f32 0x40000000#32),
    unary main_cst_1 main_v66 (broadcastInDim S32x50176x64 ![] bcast_S_S32x50176x64 : (⟨S_, .f32⟩ : BufTy).Contents (Elt F) → (⟨S32x50176x64, .f32⟩ : BufTy).Contents (Elt F)),
    binary main_v66 main_v60 main_v67 (mulf : (⟨S32x50176x64, .f32⟩ : BufTy).Contents (Elt F) → (⟨S32x50176x64, .f32⟩ : BufTy).Contents (Elt F) → (⟨S32x50176x64, .f32⟩ : BufTy).Contents (Elt F)),
    binary main_v65 main_v67 main_v68 (subf : (⟨S32x50176x64, .f32⟩ : BufTy).Contents (Elt F) → (⟨S32x50176x64, .f32⟩ : BufTy).Contents (Elt F) → (⟨S32x50176x64, .f32⟩ : BufTy).Contents (Elt F)),
    nullary main_cst_2 (constant S_ .f32 0x00000000#32),
    unary main_cst_2 main_v69 (broadcastInDim S32x50176x64 ![] bcast_S_S32x50176x64 : (⟨S_, .f32⟩ : BufTy).Contents (Elt F) → (⟨S32x50176x64, .f32⟩ : BufTy).Contents (Elt F)),
    binary main_v68 main_v69 main_v70 (maximumf : (⟨S32x50176x64, .f32⟩ : BufTy).Contents (Elt F) → (⟨S32x50176x64, .f32⟩ : BufTy).Contents (Elt F) → (⟨S32x50176x64, .f32⟩ : BufTy).Contents (Elt F)),
    unary main_v70 main_v71 (Host.sqrt : (⟨S32x50176x64, .f32⟩ : BufTy).Contents (Elt F) → (⟨S32x50176x64, .f32⟩ : BufTy).Contents (Elt F)),
    unary main_v71 main_v72 ((transpose S32x64x50176 [0, 2, 1] · transposes_S32x50176x64_S32x64x50176_0_2_1) : (⟨S32x50176x64, .f32⟩ : BufTy).Contents (Elt F) → (⟨S32x64x50176, .f32⟩ : BufTy).Contents (Elt F)),
    reshape main_v72 main_v73 rfl shapeCasts_S32x64x50176_S32x64x224x224 ]

set_option maxRecDepth 8192 in
theorem main_eq (c : Dev nD) : main (F := F) c = seq ops := by sl_kernel_rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., reshape_bufs_sub .., unary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., unary_bufs_sub .., unary_bufs_sub .., reshape_bufs_sub ..⟩

/-- No operation allocates a buffer. -/
theorem ops_fresh : (ops : List (HloOp τ sig (Elt F))).Forall fun op => op.fresh = ∅ := by
  simp only [List.Forall]; repeat' constructor

end Cert.RbfRef

end
-- ==== Proof.RefParts.lean ====
/-
  The reference's operations in three stretches, and what each leaves.

  The 80 operations fall into the pad (3 operations: the zero word, its conversion to a float, the pad itself), the window
  tensor (55: the 25 slices of the padded batch, their 25 unit-axis broadcasts, the three joins, the collapse and the swap)
  and the tail (22: squares, sums, contraction, broadcasts, sum, doubling, difference, clamp, square root, swap and
  split). Run from any contents of the buffers, the pad leaves the padded first argument and does not touch the second; the
  window stretch leaves the window tensor of whatever the padded buffer held and does not touch the second argument; the
  tail leaves its result as a function of the window tensor and the second argument. A run of the whole list is the three
  runs one after another, so the result buffer ends as the tail's function of the window tensor of the padded first
  argument, and of the second.
-/
import proofs.«140928_j40114994544664_2_alg».proof.Proof.RefOps
import Idealize.ShloMosaic.Lib.Pipeline.Frame

noncomputable section

namespace Cert.RbfRef

open Cert.ReferenceIdeal Cert.ReferenceIdeal.Gen
open Idealize.ShloMosaic Idealize.ShloMosaic.TcCoe Idealize.SL.Sem Idealize.ShloMosaic.StableHlo
open Idealize.ShloMosaic.Tactic

variable {F : FTy → Type} [FloatOps F]

/-- The pad's three operations. -/
abbrev opsPad : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S32x3x224x224, .f32⟩) main_arg0) (TRef.of (T := ⟨S_, .f32⟩) main_call0_v0) (TRef.of (T := ⟨S32x3x228x228, .f32⟩) main_v0) (fun x v => pad S32x3x228x228 ![0, 0, 2, 2] ![0, 0, 2, 2] ![0, 0, 0, 0] x v pads_S32x3x224x224_S32x3x228x228_000_000_220_220 h_S_) ]

/-- The window tensor's 55 operations. -/
abbrev opsWin : List (HloOp τ sig (Elt F)) :=
  [ unary main_v0 main_v1 ((extractStridedSlice S32x3x224x224 ![0, 0, 0, 0] · slices_S32x3x228x228_S32x3x224x224_0_0_0_0) : (⟨S32x3x228x228, .f32⟩ : BufTy).Contents (Elt F) → (⟨S32x3x224x224, .f32⟩ : BufTy).Contents (Elt F)),
    unary main_v0 main_v2 ((extractStridedSlice S32x3x224x224 ![0, 0, 0, 1] · slices_S32x3x228x228_S32x3x224x224_0_0_0_1) : (⟨S32x3x228x228, .f32⟩ : BufTy).Contents (Elt F) → (⟨S32x3x224x224, .f32⟩ : BufTy).Contents (Elt F)),
    unary main_v0 main_v3 ((extractStridedSlice S32x3x224x224 ![0, 0, 0, 2] · slices_S32x3x228x228_S32x3x224x224_0_0_0_2) : (⟨S32x3x228x228, .f32⟩ : BufTy).Contents (Elt F) → (⟨S32x3x224x224, .f32⟩ : BufTy).Contents (Elt F)),
    unary main_v0 main_v4 ((extractStridedSlice S32x3x224x224 ![0, 0, 0, 3] · slices_S32x3x228x228_S32x3x224x224_0_0_0_3) : (⟨S32x3x228x228, .f32⟩ : BufTy).Contents (Elt F) → (⟨S32x3x224x224, .f32⟩ : BufTy).Contents (Elt F)),
    unary main_v0 main_v5 ((extractStridedSlice S32x3x224x224 ![0, 0, 0, 4] · slices_S32x3x228x228_S32x3x224x224_0_0_0_4) : (⟨S32x3x228x228, .f32⟩ : BufTy).Contents (Elt F) → (⟨S32x3x224x224, .f32⟩ : BufTy).Contents (Elt F)),
    unary main_v0 main_v6 ((extractStridedSlice S32x3x224x224 ![0, 0, 1, 0] · slices_S32x3x228x228_S32x3x224x224_0_0_1_0) : (⟨S32x3x228x228, .f32⟩ : BufTy).Contents (Elt F) → (⟨S32x3x224x224, .f32⟩ : BufTy).Contents (Elt F)),
    unary main_v0 main_v7 ((extractStridedSlice S32x3x224x224 ![0, 0, 1, 1] · slices_S32x3x228x228_S32x3x224x224_0_0_1_1) : (⟨S32x3x228x228, .f32⟩ : BufTy).Contents (Elt F) → (⟨S32x3x224x224, .f32⟩ : BufTy).Contents (Elt F)),
    unary main_v0 main_v8 ((extractStridedSlice S32x3x224x224 ![0, 0, 1, 2] · slices_S32x3x228x228_S32x3x224x224_0_0_1_2) : (⟨S32x3x228x228, .f32⟩ : BufTy).Contents (Elt F) → (⟨S32x3x224x224, .f32⟩ : BufTy).Contents (Elt F)),
    unary main_v0 main_v9 ((extractStridedSlice S32x3x224x224 ![0, 0, 1, 3] · slices_S32x3x228x228_S32x3x224x224_0_0_1_3) : (⟨S32x3x228x228, .f32⟩ : BufTy).Contents (Elt F) → (⟨S32x3x224x224, .f32⟩ : BufTy).Contents (Elt F)),
    unary main_v0 main_v10 ((extractStridedSlice S32x3x224x224 ![0, 0, 1, 4] · slices_S32x3x228x228_S32x3x224x224_0_0_1_4) : (⟨S32x3x228x228, .f32⟩ : BufTy).Contents (Elt F) → (⟨S32x3x224x224, .f32⟩ : BufTy).Contents (Elt F)),
    unary main_v0 main_v11 ((extractStridedSlice S32x3x224x224 ![0, 0, 2, 0] · slices_S32x3x228x228_S32x3x224x224_0_0_2_0) : (⟨S32x3x228x228, .f32⟩ : BufTy).Contents (Elt F) → (⟨S32x3x224x224, .f32⟩ : BufTy).Contents (Elt F)),
    unary main_v0 main_v12 ((extractStridedSlice S32x3x224x224 ![0, 0, 2, 1] · slices_S32x3x228x228_S32x3x224x224_0_0_2_1) : (⟨S32x3x228x228, .f32⟩ : BufTy).Contents (Elt F) → (⟨S32x3x224x224, .f32⟩ : BufTy).Contents (Elt F)),
    unary main_v0 main_v13 ((extractStridedSlice S32x3x224x224 ![0, 0, 2, 2] · slices_S32x3x228x228_S32x3x224x224_0_0_2_2) : (⟨S32x3x228x228, .f32⟩ : BufTy).Contents (Elt F) → (⟨S32x3x224x224, .f32⟩ : BufTy).Contents (Elt F)),
    unary main_v0 main_v14 ((extractStridedSlice S32x3x224x224 ![0, 0, 2, 3] · slices_S32x3x228x228_S32x3x224x224_0_0_2_3) : (⟨S32x3x228x228, .f32⟩ : BufTy).Contents (Elt F) → (⟨S32x3x224x224, .f32⟩ : BufTy).Contents (Elt F)),
    unary main_v0 main_v15 ((extractStridedSlice S32x3x224x224 ![0, 0, 2, 4] · slices_S32x3x228x228_S32x3x224x224_0_0_2_4) : (⟨S32x3x228x228, .f32⟩ : BufTy).Contents (Elt F) → (⟨S32x3x224x224, .f32⟩ : BufTy).Contents (Elt F)),
    unary main_v0 main_v16 ((extractStridedSlice S32x3x224x224 ![0, 0, 3, 0] · slices_S32x3x228x228_S32x3x224x224_0_0_3_0) : (⟨S32x3x228x228, .f32⟩ : BufTy).Contents (Elt F) → (⟨S32x3x224x224, .f32⟩ : BufTy).Contents (Elt F)),
    unary main_v0 main_v17 ((extractStridedSlice S32x3x224x224 ![0, 0, 3, 1] · slices_S32x3x228x228_S32x3x224x224_0_0_3_1) : (⟨S32x3x228x228, .f32⟩ : BufTy).Contents (Elt F) → (⟨S32x3x224x224, .f32⟩ : BufTy).Contents (Elt F)),
    unary main_v0 main_v18 ((extractStridedSlice S32x3x224x224 ![0, 0, 3, 2] · slices_S32x3x228x228_S32x3x224x224_0_0_3_2) : (⟨S32x3x228x228, .f32⟩ : BufTy).Contents (Elt F) → (⟨S32x3x224x224, .f32⟩ : BufTy).Contents (Elt F)),
    unary main_v0 main_v19 ((extractStridedSlice S32x3x224x224 ![0, 0, 3, 3] · slices_S32x3x228x228_S32x3x224x224_0_0_3_3) : (⟨S32x3x228x228, .f32⟩ : BufTy).Contents (Elt F) → (⟨S32x3x224x224, .f32⟩ : BufTy).Contents (Elt F)),
    unary main_v0 main_v20 ((extractStridedSlice S32x3x224x224 ![0, 0, 3, 4] · slices_S32x3x228x228_S32x3x224x224_0_0_3_4) : (⟨S32x3x228x228, .f32⟩ : BufTy).Contents (Elt F) → (⟨S32x3x224x224, .f32⟩ : BufTy).Contents (Elt F)),
    unary main_v0 main_v21 ((extractStridedSlice S32x3x224x224 ![0, 0, 4, 0] · slices_S32x3x228x228_S32x3x224x224_0_0_4_0) : (⟨S32x3x228x228, .f32⟩ : BufTy).Contents (Elt F) → (⟨S32x3x224x224, .f32⟩ : BufTy).Contents (Elt F)),
    unary main_v0 main_v22 ((extractStridedSlice S32x3x224x224 ![0, 0, 4, 1] · slices_S32x3x228x228_S32x3x224x224_0_0_4_1) : (⟨S32x3x228x228, .f32⟩ : BufTy).Contents (Elt F) → (⟨S32x3x224x224, .f32⟩ : BufTy).Contents (Elt F)),
    unary main_v0 main_v23 ((extractStridedSlice S32x3x224x224 ![0, 0, 4, 2] · slices_S32x3x228x228_S32x3x224x224_0_0_4_2) : (⟨S32x3x228x228, .f32⟩ : BufTy).Contents (Elt F) → (⟨S32x3x224x224, .f32⟩ : BufTy).Contents (Elt F)),
    unary main_v0 main_v24 ((extractStridedSlice S32x3x224x224 ![0, 0, 4, 3] · slices_S32x3x228x228_S32x3x224x224_0_0_4_3) : (⟨S32x3x228x228, .f32⟩ : BufTy).Contents (Elt F) → (⟨S32x3x224x224, .f32⟩ : BufTy).Contents (Elt F)),
    unary main_v0 main_v25 ((extractStridedSlice S32x3x224x224 ![0, 0, 4, 4] · slices_S32x3x228x228_S32x3x224x224_0_0_4_4) : (⟨S32x3x228x228, .f32⟩ : BufTy).Contents (Elt F) → (⟨S32x3x224x224, .f32⟩ : BufTy).Contents (Elt F)),
    unary main_v1 main_v26 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v2 main_v27 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v3 main_v28 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v4 main_v29 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v5 main_v30 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v6 main_v31 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v7 main_v32 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v8 main_v33 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v9 main_v34 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v10 main_v35 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v11 main_v36 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v12 main_v37 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v13 main_v38 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v14 main_v39 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v15 main_v40 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v16 main_v41 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v17 main_v42 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v18 main_v43 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v19 main_v44 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v20 main_v45 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v21 main_v46 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v22 main_v47 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v23 main_v48 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v24 main_v49 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    unary main_v25 main_v50 (broadcastInDim S32x3x1x224x224 ![0, 1, 3, 4] bcast_S32x3x224x224_S32x3x1x224x224_0_1_3_4 : (⟨S32x3x224x224, .f32⟩ : BufTy).Contents (Elt F) → (⟨S32x3x1x224x224, .f32⟩ : BufTy).Contents (Elt F)),
    nary ![main_v26, main_v27, main_v28, main_v29, main_v30, main_v31, main_v32, main_v33, main_v34, main_v35, main_v36, main_v37, main_v38, main_v39, main_v40, main_v41] main_v51 (fun u => concatenate S32x3x16x224x224 2 [⟨S32x3x1x224x224, u 0⟩, ⟨S32x3x1x224x224, u 1⟩, ⟨S32x3x1x224x224, u 2⟩, ⟨S32x3x1x224x224, u 3⟩, ⟨S32x3x1x224x224, u 4⟩, ⟨S32x3x1x224x224, u 5⟩, ⟨S32x3x1x224x224, u 6⟩, ⟨S32x3x1x224x224, u 7⟩, ⟨S32x3x1x224x224, u 8⟩, ⟨S32x3x1x224x224, u 9⟩, ⟨S32x3x1x224x224, u 10⟩, ⟨S32x3x1x224x224, u 11⟩, ⟨S32x3x1x224x224, u 12⟩, ⟨S32x3x1x224x224, u 13⟩, ⟨S32x3x1x224x224, u 14⟩, ⟨S32x3x1x224x224, u 15⟩] concatenates_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x16x224x224_d2),
    nary ![main_v42, main_v43, main_v44, main_v45, main_v46, main_v47, main_v48, main_v49, main_v50] main_v52 (fun u => concatenate S32x3x9x224x224 2 [⟨S32x3x1x224x224, u 0⟩, ⟨S32x3x1x224x224, u 1⟩, ⟨S32x3x1x224x224, u 2⟩, ⟨S32x3x1x224x224, u 3⟩, ⟨S32x3x1x224x224, u 4⟩, ⟨S32x3x1x224x224, u 5⟩, ⟨S32x3x1x224x224, u 6⟩, ⟨S32x3x1x224x224, u 7⟩, ⟨S32x3x1x224x224, u 8⟩] concatenates_S32x3x1x224x224_S32x3x1x224x224_S32x3x1x224x224_S32x3x1x224x224_S32x3x1x224x224_S32x3x1x224x224_S32x3x1x224x224_S32x3x1x224x224_S32x3x1x224x224_S32x3x9x224x224_d2),
    binary main_v51 main_v52 main_v53 ((fun a b => concatenate S32x3x25x224x224 2 [⟨S32x3x16x224x224, a⟩, ⟨S32x3x9x224x224, b⟩] concatenates_S32x3x16x224x224_S32x3x9x224x224_S32x3x25x224x224_d2) : (⟨S32x3x16x224x224, .f32⟩ : BufTy).Contents (Elt F) → (⟨S32x3x9x224x224, .f32⟩ : BufTy).Contents (Elt F) → (⟨S32x3x25x224x224, .f32⟩ : BufTy).Contents (Elt F)),
    reshape main_v53 main_v54 rfl shapeCasts_S32x3x25x224x224_S32x75x50176,
    unary main_v54 main_v55 ((transpose S32x50176x75 [0, 2, 1] · transposes_S32x75x50176_S32x50176x75_0_2_1) : (⟨S32x75x50176, .f32⟩ : BufTy).Contents (Elt F) → (⟨S32x50176x75, .f32⟩ : BufTy).Contents (Elt F)) ]

/-- The tail's 22 operations. -/
abbrev opsTail : List (HloOp τ sig (Elt F)) :=
  [ binary main_v55 main_v55 main_v56 (mulf : (⟨S32x50176x75, .f32⟩ : BufTy).Contents (Elt F) → (⟨S32x50176x75, .f32⟩ : BufTy).Contents (Elt F) → (⟨S32x50176x75, .f32⟩ : BufTy).Contents (Elt F)),
    nullary main_cst (constant S_ .f32 0x00000000#32),
    binary main_v56 main_cst main_v57 ((fun x v => Host.reduceAdd x v reducesTo_S32x50176x75_S32x50176_d2 h_S_) : (⟨S32x50176x75, .f32⟩ : BufTy).Contents (Elt F) → (⟨S_, .f32⟩ : BufTy).Contents (Elt F) → (⟨S32x50176, .f32⟩ : BufTy).Contents (Elt F)),
    binary main_arg1 main_arg1 main_v58 (mulf : (⟨S64x75, .f32⟩ : BufTy).Contents (Elt F) → (⟨S64x75, .f32⟩ : BufTy).Contents (Elt F) → (⟨S64x75, .f32⟩ : BufTy).Contents (Elt F)),
    nullary main_cst_0 (constant S_ .f32 0x00000000#32),
    binary main_v58 main_cst_0 main_v59 ((fun x v => Host.reduceAdd x v reducesTo_S64x75_S64_d1 h_S_) : (⟨S64x75, .f32⟩ : BufTy).Contents (Elt F) → (⟨S_, .f32⟩ : BufTy).Contents (Elt F) → (⟨S64, .f32⟩ : BufTy).Contents (Elt F)),
    binary main_v55 main_arg1 main_v60 ((fun l r => Host.dotGeneral dot_S32x50176x75_S64x75_S32x50176x64_2_1_01_0_n_n none l r) : (⟨S32x50176x75, .f32⟩ : BufTy).Contents (Elt F) → (⟨S64x75, .f32⟩ : BufTy).Contents (Elt F) → (⟨S32x50176x64, .f32⟩ : BufTy).Contents (Elt F)),
    unary main_v57 main_v61 (broadcastInDim S32x50176x1 ![0, 1] bcast_S32x50176_S32x50176x1_0_1 : (⟨S32x50176, .f32⟩ : BufTy).Contents (Elt F) → (⟨S32x50176x1, .f32⟩ : BufTy).Contents (Elt F)),
    unary main_v59 main_v62 (broadcastInDim S1x1x64 ![2] bcast_S64_S1x1x64_2 : (⟨S64, .f32⟩ : BufTy).Contents (Elt F) → (⟨S1x1x64, .f32⟩ : BufTy).Contents (Elt F)),
    unary main_v61 main_v63 (broadcastInDim S32x50176x64 ![0, 1, 2] bcast_S32x50176x1_S32x50176x64_0_1_2 : (⟨S32x50176x1, .f32⟩ : BufTy).Contents (Elt F) → (⟨S32x50176x64, .f32⟩ : BufTy).Contents (Elt F)),
    unary main_v62 main_v64 (broadcastInDim S32x50176x64 ![0, 1, 2] bcast_S1x1x64_S32x50176x64_0_1_2 : (⟨S1x1x64, .f32⟩ : BufTy).Contents (Elt F) → (⟨S32x50176x64, .f32⟩ : BufTy).Contents (Elt F)),
    binary main_v63 main_v64 main_v65 (addf : (⟨S32x50176x64, .f32⟩ : BufTy).Contents (Elt F) → (⟨S32x50176x64, .f32⟩ : BufTy).Contents (Elt F) → (⟨S32x50176x64, .f32⟩ : BufTy).Contents (Elt F)),
    nullary main_cst_1 (constant S_ .f32 0x40000000#32),
    unary main_cst_1 main_v66 (broadcastInDim S32x50176x64 ![] bcast_S_S32x50176x64 : (⟨S_, .f32⟩ : BufTy).Contents (Elt F) → (⟨S32x50176x64, .f32⟩ : BufTy).Contents (Elt F)),
    binary main_v66 main_v60 main_v67 (mulf : (⟨S32x50176x64, .f32⟩ : BufTy).Contents (Elt F) → (⟨S32x50176x64, .f32⟩ : BufTy).Contents (Elt F) → (⟨S32x50176x64, .f32⟩ : BufTy).Contents (Elt F)),
    binary main_v65 main_v67 main_v68 (subf : (⟨S32x50176x64, .f32⟩ : BufTy).Contents (Elt F) → (⟨S32x50176x64, .f32⟩ : BufTy).Contents (Elt F) → (⟨S32x50176x64, .f32⟩ : BufTy).Contents (Elt F)),
    nullary main_cst_2 (constant S_ .f32 0x00000000#32),
    unary main_cst_2 main_v69 (broadcastInDim S32x50176x64 ![] bcast_S_S32x50176x64 : (⟨S_, .f32⟩ : BufTy).Contents (Elt F) → (⟨S32x50176x64, .f32⟩ : BufTy).Contents (Elt F)),
    binary main_v68 main_v69 main_v70 (maximumf : (⟨S32x50176x64, .f32⟩ : BufTy).Contents (Elt F) → (⟨S32x50176x64, .f32⟩ : BufTy).Contents (Elt F) → (⟨S32x50176x64, .f32⟩ : BufTy).Contents (Elt F)),
    unary main_v70 main_v71 (Host.sqrt : (⟨S32x50176x64, .f32⟩ : BufTy).Contents (Elt F) → (⟨S32x50176x64, .f32⟩ : BufTy).Contents (Elt F)),
    unary main_v71 main_v72 ((transpose S32x64x50176 [0, 2, 1] · transposes_S32x50176x64_S32x64x50176_0_2_1) : (⟨S32x50176x64, .f32⟩ : BufTy).Contents (Elt F) → (⟨S32x64x50176, .f32⟩ : BufTy).Contents (Elt F)),
    reshape main_v72 main_v73 rfl shapeCasts_S32x64x50176_S32x64x224x224 ]

set_option maxRecDepth 8192 in
/-- The whole list is the three stretches end to end. -/
theorem ops_split : (ops : List (HloOp τ sig (Elt F))) = opsPad ++ (opsWin ++ opsTail) := rfl

/-- The padded batch, as the pad's operations compose it. -/
def padTerm (V0 : (⟨S32x3x224x224, .f32⟩ : BufTy).Contents (Elt F)) : (⟨S32x3x228x228, .f32⟩ : BufTy).Contents (Elt F) :=
  (pad S32x3x228x228 ![0, 0, 2, 2] ![0, 0, 2, 2] ![0, 0, 0, 0] V0 (sitofp .f32 (constantI S_ 32 0#32)) pads_S32x3x224x224_S32x3x228x228_000_000_220_220 h_S_)

/-- The window tensor of a padded batch, as the window stretch composes it. -/
def winOf (P : (⟨S32x3x228x228, .f32⟩ : BufTy).Contents (Elt F)) : (⟨S32x50176x75, .f32⟩ : BufTy).Contents (Elt F) :=
  (transpose S32x50176x75 [0, 2, 1] (shapeCast _ (concatenate S32x3x25x224x224 2 [⟨S32x3x16x224x224, (concatenate S32x3x16x224x224 2 [⟨S32x3x1x224x224, (broadcastInDim S32x3x1x224x224 ![0, 1, 3, 4] bcast_S32x3x224x224_S32x3x1x224x224_0_1_3_4 (extractStridedSlice S32x3x224x224 ![0, 0, 0, 0] P slices_S32x3x228x228_S32x3x224x224_0_0_0_0))⟩, ⟨S32x3x1x224x224, (broadcastInDim S32x3x1x224x224 ![0, 1, 3, 4] bcast_S32x3x224x224_S32x3x1x224x224_0_1_3_4 (extractStridedSlice S32x3x224x224 ![0, 0, 0, 1] P slices_S32x3x228x228_S32x3x224x224_0_0_0_1))⟩, ⟨S32x3x1x224x224, (broadcastInDim S32x3x1x224x224 ![0, 1, 3, 4] bcast_S32x3x224x224_S32x3x1x224x224_0_1_3_4 (extractStridedSlice S32x3x224x224 ![0, 0, 0, 2] P slices_S32x3x228x228_S32x3x224x224_0_0_0_2))⟩, ⟨S32x3x1x224x224, (broadcastInDim S32x3x1x224x224 ![0, 1, 3, 4] bcast_S32x3x224x224_S32x3x1x224x224_0_1_3_4 (extractStridedSlice S32x3x224x224 ![0, 0, 0, 3] P slices_S32x3x228x228_S32x3x224x224_0_0_0_3))⟩, ⟨S32x3x1x224x224, (broadcastInDim S32x3x1x224x224 ![0, 1, 3, 4] bcast_S32x3x224x224_S32x3x1x224x224_0_1_3_4 (extractStridedSlice S32x3x224x224 ![0, 0, 0, 4] P slices_S32x3x228x228_S32x3x224x224_0_0_0_4))⟩, ⟨S32x3x1x224x224, (broadcastInDim S32x3x1x224x224 ![0, 1, 3, 4] bcast_S32x3x224x224_S32x3x1x224x224_0_1_3_4 (extractStridedSlice S32x3x224x224 ![0, 0, 1, 0] P slices_S32x3x228x228_S32x3x224x224_0_0_1_0))⟩, ⟨S32x3x1x224x224, (broadcastInDim S32x3x1x224x224 ![0, 1, 3, 4] bcast_S32x3x224x224_S32x3x1x224x224_0_1_3_4 (extractStridedSlice S32x3x224x224 ![0, 0, 1, 1] P slices_S32x3x228x228_S32x3x224x224_0_0_1_1))⟩, ⟨S32x3x1x224x224, (broadcastInDim S32x3x1x224x224 ![0, 1, 3, 4] bcast_S32x3x224x224_S32x3x1x224x224_0_1_3_4 (extractStridedSlice S32x3x224x224 ![0, 0, 1, 2] P slices_S32x3x228x228_S32x3x224x224_0_0_1_2))⟩, ⟨S32x3x1x224x224, (broadcastInDim S32x3x1x224x224 ![0, 1, 3, 4] bcast_S32x3x224x224_S32x3x1x224x224_0_1_3_4 (extractStridedSlice S32x3x224x224 ![0, 0, 1, 3] P slices_S32x3x228x228_S32x3x224x224_0_0_1_3))⟩, ⟨S32x3x1x224x224, (broadcastInDim S32x3x1x224x224 ![0, 1, 3, 4] bcast_S32x3x224x224_S32x3x1x224x224_0_1_3_4 (extractStridedSlice S32x3x224x224 ![0, 0, 1, 4] P slices_S32x3x228x228_S32x3x224x224_0_0_1_4))⟩, ⟨S32x3x1x224x224, (broadcastInDim S32x3x1x224x224 ![0, 1, 3, 4] bcast_S32x3x224x224_S32x3x1x224x224_0_1_3_4 (extractStridedSlice S32x3x224x224 ![0, 0, 2, 0] P slices_S32x3x228x228_S32x3x224x224_0_0_2_0))⟩, ⟨S32x3x1x224x224, (broadcastInDim S32x3x1x224x224 ![0, 1, 3, 4] bcast_S32x3x224x224_S32x3x1x224x224_0_1_3_4 (extractStridedSlice S32x3x224x224 ![0, 0, 2, 1] P slices_S32x3x228x228_S32x3x224x224_0_0_2_1))⟩, ⟨S32x3x1x224x224, (broadcastInDim S32x3x1x224x224 ![0, 1, 3, 4] bcast_S32x3x224x224_S32x3x1x224x224_0_1_3_4 (extractStridedSlice S32x3x224x224 ![0, 0, 2, 2] P slices_S32x3x228x228_S32x3x224x224_0_0_2_2))⟩, ⟨S32x3x1x224x224, (broadcastInDim S32x3x1x224x224 ![0, 1, 3, 4] bcast_S32x3x224x224_S32x3x1x224x224_0_1_3_4 (extractStridedSlice S32x3x224x224 ![0, 0, 2, 3] P slices_S32x3x228x228_S32x3x224x224_0_0_2_3))⟩, ⟨S32x3x1x224x224, (broadcastInDim S32x3x1x224x224 ![0, 1, 3, 4] bcast_S32x3x224x224_S32x3x1x224x224_0_1_3_4 (extractStridedSlice S32x3x224x224 ![0, 0, 2, 4] P slices_S32x3x228x228_S32x3x224x224_0_0_2_4))⟩, ⟨S32x3x1x224x224, (broadcastInDim S32x3x1x224x224 ![0, 1, 3, 4] bcast_S32x3x224x224_S32x3x1x224x224_0_1_3_4 (extractStridedSlice S32x3x224x224 ![0, 0, 3, 0] P slices_S32x3x228x228_S32x3x224x224_0_0_3_0))⟩] concatenates_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x1x224x224_S32x3x16x224x224_d2)⟩, ⟨S32x3x9x224x224, (concatenate S32x3x9x224x224 2 [⟨S32x3x1x224x224, (broadcastInDim S32x3x1x224x224 ![0, 1, 3, 4] bcast_S32x3x224x224_S32x3x1x224x224_0_1_3_4 (extractStridedSlice S32x3x224x224 ![0, 0, 3, 1] P slices_S32x3x228x228_S32x3x224x224_0_0_3_1))⟩, ⟨S32x3x1x224x224, (broadcastInDim S32x3x1x224x224 ![0, 1, 3, 4] bcast_S32x3x224x224_S32x3x1x224x224_0_1_3_4 (extractStridedSlice S32x3x224x224 ![0, 0, 3, 2] P slices_S32x3x228x228_S32x3x224x224_0_0_3_2))⟩, ⟨S32x3x1x224x224, (broadcastInDim S32x3x1x224x224 ![0, 1, 3, 4] bcast_S32x3x224x224_S32x3x1x224x224_0_1_3_4 (extractStridedSlice S32x3x224x224 ![0, 0, 3, 3] P slices_S32x3x228x228_S32x3x224x224_0_0_3_3))⟩, ⟨S32x3x1x224x224, (broadcastInDim S32x3x1x224x224 ![0, 1, 3, 4] bcast_S32x3x224x224_S32x3x1x224x224_0_1_3_4 (extractStridedSlice S32x3x224x224 ![0, 0, 3, 4] P slices_S32x3x228x228_S32x3x224x224_0_0_3_4))⟩, ⟨S32x3x1x224x224, (broadcastInDim S32x3x1x224x224 ![0, 1, 3, 4] bcast_S32x3x224x224_S32x3x1x224x224_0_1_3_4 (extractStridedSlice S32x3x224x224 ![0, 0, 4, 0] P slices_S32x3x228x228_S32x3x224x224_0_0_4_0))⟩, ⟨S32x3x1x224x224, (broadcastInDim S32x3x1x224x224 ![0, 1, 3, 4] bcast_S32x3x224x224_S32x3x1x224x224_0_1_3_4 (extractStridedSlice S32x3x224x224 ![0, 0, 4, 1] P slices_S32x3x228x228_S32x3x224x224_0_0_4_1))⟩, ⟨S32x3x1x224x224, (broadcastInDim S32x3x1x224x224 ![0, 1, 3, 4] bcast_S32x3x224x224_S32x3x1x224x224_0_1_3_4 (extractStridedSlice S32x3x224x224 ![0, 0, 4, 2] P slices_S32x3x228x228_S32x3x224x224_0_0_4_2))⟩, ⟨S32x3x1x224x224, (broadcastInDim S32x3x1x224x224 ![0, 1, 3, 4] bcast_S32x3x224x224_S32x3x1x224x224_0_1_3_4 (extractStridedSlice S32x3x224x224 ![0, 0, 4, 3] P slices_S32x3x228x228_S32x3x224x224_0_0_4_3))⟩, ⟨S32x3x1x224x224, (broadcastInDim S32x3x1x224x224 ![0, 1, 3, 4] bcast_S32x3x224x224_S32x3x1x224x224_0_1_3_4 (extractStridedSlice S32x3x224x224 ![0, 0, 4, 4] P slices_S32x3x228x228_S32x3x224x224_0_0_4_4))⟩] concatenates_S32x3x1x224x224_S32x3x1x224x224_S32x3x1x224x224_S32x3x1x224x224_S32x3x1x224x224_S32x3x1x224x224_S32x3x1x224x224_S32x3x1x224x224_S32x3x1x224x224_S32x3x9x224x224_d2)⟩] concatenates_S32x3x16x224x224_S32x3x9x224x224_S32x3x25x224x224_d2) shapeCasts_S32x3x25x224x224_S32x75x50176) transposes_S32x75x50176_S32x50176x75_0_2_1)

/-- The result over a window tensor and the prototypes, as the tail composes it. -/
def resTail (X : (⟨S32x50176x75, .f32⟩ : BufTy).Contents (Elt F)) (V1 : (⟨S64x75, .f32⟩ : BufTy).Contents (Elt F)) :
    (⟨S32x64x224x224, .f32⟩ : BufTy).Contents (Elt F) :=
  (shapeCast _ (transpose S32x64x50176 [0, 2, 1] (Host.sqrt (maximumf (subf (addf (broadcastInDim S32x50176x64 ![0, 1, 2] bcast_S32x50176x1_S32x50176x64_0_1_2 (broadcastInDim S32x50176x1 ![0, 1] bcast_S32x50176_S32x50176x1_0_1 (Host.reduceAdd (mulf X X) (constant S_ .f32 0x00000000#32) reducesTo_S32x50176x75_S32x50176_d2 h_S_))) (broadcastInDim S32x50176x64 ![0, 1, 2] bcast_S1x1x64_S32x50176x64_0_1_2 (broadcastInDim S1x1x64 ![2] bcast_S64_S1x1x64_2 (Host.reduceAdd (mulf V1 V1) (constant S_ .f32 0x00000000#32) reducesTo_S64x75_S64_d1 h_S_)))) (mulf (broadcastInDim S32x50176x64 ![] bcast_S_S32x50176x64 (constant S_ .f32 0x40000000#32)) (Host.dotGeneral dot_S32x50176x75_S64x75_S32x50176x64_2_1_01_0_n_n none X V1))) (broadcastInDim S32x50176x64 ![] bcast_S_S32x50176x64 (constant S_ .f32 0x00000000#32)))) transposes_S32x50176x64_S32x64x50176_0_2_1) shapeCasts_S32x64x50176_S32x64x224x224)

variable (V : Valuation τ sig (Elt F))

theorem pad_fold : after opsPad V (Proc.devRef .tc main_v0) = padTerm (V (Proc.devRef .tc main_arg0)) := by sl_kernel_rfl
theorem pad_keep : after opsPad V (Proc.devRef .tc main_arg1) = V (Proc.devRef .tc main_arg1) := by sl_kernel_rfl

set_option maxRecDepth 8192 in
set_option maxHeartbeats 4000000 in
theorem win_fold : after opsWin V (Proc.devRef .tc main_v55) = winOf (V (Proc.devRef .tc main_v0)) := by
  unfold winOf
  after_results
  rfl
set_option maxRecDepth 8192 in
theorem win_keep : after opsWin V (Proc.devRef .tc main_arg1) = V (Proc.devRef .tc main_arg1) := by sl_kernel_rfl

set_option maxRecDepth 8192 in
set_option maxHeartbeats 2000000 in
theorem tail_fold : after opsTail V (Proc.devRef .tc main_v73)
    = resTail (V (Proc.devRef .tc main_v55)) (V (Proc.devRef .tc main_arg1)) := by
  unfold resTail
  after_results
  rfl

/-- The fold of the whole list at the result buffer. -/
theorem fold_result : after ops V (Proc.devRef .tc main_v73)
    = resTail (winOf (padTerm (V (Proc.devRef .tc main_arg0)))) (V (Proc.devRef .tc main_arg1)) := by
  rw [ops_split, StableHlo.after_append, StableHlo.after_append, tail_fold, win_fold, win_keep, pad_fold, pad_keep]

end Cert.RbfRef

end
-- ==== Proof.RefTree.lean ====
/-
  The composed terms are the definitions.

  What the pad's operations compose is the padded batch; what the window stretch composes from a padded batch is its window
  tensor, the shifted copies being the slices with their unit axis and copy number `n` having offsets `(n / 5, n % 5)`;
  and what the tail composes from that window tensor and the prototypes is the reference's value.
-/
import proofs.«140928_j40114994544664_2_alg».proof.Proof.RefValue
import proofs.«140928_j40114994544664_2_alg».proof.Proof.RefParts

set_option maxRecDepth 8192

noncomputable section

namespace Cert.RbfRef

open Cert.ReferenceIdeal Cert.ReferenceIdeal.Gen Cert.RbfSpec
open Idealize.ShloMosaic Idealize.ShloMosaic.ValueIdx

theorem padTerm_eq (V0 : (⟨S32x3x224x224, .f32⟩ : BufTy).Contents (Elt Ideal)) : padTerm (F := Ideal) V0 = padded V0 := rfl

theorem winOf_eq (P : (⟨S32x3x228x228, .f32⟩ : BufTy).Contents (Elt Ideal)) : winOf (F := Ideal) P = windows P := by
  unfold winOf windows stacked stackA stackB copy shifted
  rfl

theorem resTail_eq (xp : S32x3x228x228.Idx → EReal) (V1 : (⟨S64x75, .f32⟩ : BufTy).Contents (Elt Ideal)) :
    resTail (F := Ideal) (windows xp) V1 = refVal xp V1 := by
  unfold resTail refVal
  rfl

end Cert.RbfRef

end
-- ==== Proof.RefRun.lean ====
/-
  The reference's run.

  Run in order from any memory, every weakly fair execution of the reference terminates with each buffer at the fold of
  the operations' results over its launch contents. At the result buffer that fold is the reference's value of the padded
  first argument and the second, and at the two argument buffers it is what was there, each by unfolding the fold one
  operation at a time; the reference's value is the distance map.
-/
import proofs.«140928_j40114994544664_2_alg».proof.Proof.RefTree

noncomputable section

namespace Cert.RbfRef

open Cert.ReferenceIdeal Cert.ReferenceIdeal.Gen Cert.RbfSpec
open Idealize.ShloMosaic Idealize.ShloMosaic.TcCoe Idealize.SL.Sem Idealize.ShloMosaic.StableHlo
open Idealize.ShloMosaic.Tactic

section Fold

variable {F : FTy → Type} [FloatOps F] (m : (ℓ : Loc nD τ sig) → Buf (Elt F) ℓ)

set_option maxRecDepth 8192 in
theorem after_arg0 (c : Dev nD) :
    after (ops (F := F)) (launchContents m c) (Proc.devRef .tc main_arg0) = m ((c.tc : Thread nD τ).loc main_arg0) := by sl_kernel_rfl

set_option maxRecDepth 8192 in
theorem after_arg1 (c : Dev nD) :
    after (ops (F := F)) (launchContents m c) (Proc.devRef .tc main_arg1) = m ((c.tc : Thread nD τ).loc main_arg1) := by sl_kernel_rfl

end Fold

variable (m : (ℓ : Loc nD τ sig) → Buf (Elt Ideal) ℓ) (ρ : Dev nD → PrngReg)

/-- The fold at the result buffer is the reference's value of the padded first argument and the second. -/
theorem after_result (c : Dev nD) :
    after (ops (F := Ideal)) (launchContents m c) (Proc.devRef .tc main_v73)
      = refVal (padded (m ((c.tc : Thread nD τ).loc main_arg0))) (m ((c.tc : Thread nD τ).loc main_arg1)) := by
  rw [fold_result, padTerm_eq, winOf_eq, resTail_eq]

/-- The run: the result array ends as the distance map of the padded first argument and the second; the arguments are
    unchanged. -/
theorem run : θ_run defs (onTc (τ := τ) (main (F := Ideal))) ⟨m, fun _ => 0, ρ⟩ fun r => ∀ c : Dev nD,
      r.2.mem ((c.tc : Thread nD τ).loc main_v73)
          = rbfDist (padded (m ((c.tc : Thread nD τ).loc main_arg0))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v73).trans ((after_result m c).trans (reference_eq _ _)),
      (h c main_arg0).trans (after_arg0 m c),
      (h c main_arg1).trans (after_arg1 m c)⟩)
    (run_seq scopedRefs_eq scopedSems_eq defs main (fun _ => ops (F := Ideal)) main_eq (fun _ => ops_sub) m ρ
      (fun _ => List.forall_iff_forall_mem.mp ops_fresh))

end Cert.RbfRef

end
-- ==== Proof.lean ====
/-
  A radial-basis convolution against its reference: for an image batch `x : [32, 3, 224, 224]` and 64 prototype rows
  `weight : [64, 75]`, the result `[32, 64, 224, 224]` holds at `(b, o, h, w)` the Euclidean distance between the
  5 × 5 × 3 window of the zero-padded image `b` at `(h, w)` and prototype row `o`, computed as
  `√ max ((‖p‖² + ‖wt‖²) − 2 ⟨p, wt⟩) 0`.

  The reference unfolds the padded batch into all its windows `[32, 50176, 75]` and takes the three sums over the 75
  window entries. The kernel works one image and 32 output rows at a time: it loads a slab of 36 padded rows, sums the
  squares over the 3 channels first and then over the 25 offsets, stacks the 25 shifted copies of the slab into the
  window tensor, and for each of the 32 rows multiplies the prototypes into that row of the tensor on the matrix unit.
  On the extended reals the two agree entry by entry: the norms are the same finite sums regrouped (75 = 3 × 25), the
  products the same sums with their factors exchanged, the two norms added in the other order; narrowing to bf16 is the
  identity there. Only commutativity and associativity of `+` and commutativity of `·` are used, so the finiteness of the
  inputs is never opened. The idealization rewrote no operation, so that claim is trivial.
-/
import proofs.«140928_j40114994544664_2_alg».proof.Defs
import proofs.«140928_j40114994544664_2_alg».proof.Proof.Gen.Kernel
import proofs.«140928_j40114994544664_2_alg».proof.Proof.Gen.Kernel.Skeleton
import proofs.«140928_j40114994544664_2_alg».proof.Proof.Gen.Kernel.Launch
import proofs.«140928_j40114994544664_2_alg».proof.Proof.Gen.Kernel.Points
import proofs.«140928_j40114994544664_2_alg».proof.Proof.Gen.Kernel.Frame
import proofs.«140928_j40114994544664_2_alg».proof.Proof.Gen.KernelIdeal
import proofs.«140928_j40114994544664_2_alg».proof.Proof.Gen.KernelIdeal.Skeleton
import proofs.«140928_j40114994544664_2_alg».proof.Proof.Gen.KernelIdeal.Launch
import proofs.«140928_j40114994544664_2_alg».proof.Proof.Gen.KernelIdeal.Points
import proofs.«140928_j40114994544664_2_alg».proof.Proof.Gen.KernelIdeal.Frame
import proofs.«140928_j40114994544664_2_alg».proof.Proof.Gen.ReferenceIdeal
import proofs.«140928_j40114994544664_2_alg».proof.Proof.Gen.Pre_finite_inputs
import proofs.«140928_j40114994544664_2_alg».proof.Proof.Gen.KernelIdeal.Value
import proofs.«140928_j40114994544664_2_alg».proof.Proof.KernelArray
import proofs.«140928_j40114994544664_2_alg».proof.Proof.RefRun
import Idealize.ShloMosaic.Adequacy
import Idealize.ShloMosaic.Init

noncomputable section

namespace Cert.Proof

open Idealize.ShloMosaic Idealize.ShloMosaic.TcCoe Idealize.SL.Sem

/-- The pad the reference applies is the pad the kernel's host prefix applies. -/
theorem pad_eq (x : Cert.ReferenceIdeal.S32x3x224x224.Idx → EReal) : Cert.RbfRef.padded x = Cert.RbfKernel.padOf x := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.RbfRef.run m ρ)

/-- The idealization rewrote nothing. -/
theorem preserves : Cert.preserves_Kernel_KernelIdeal := trivial

/-- Both runs end with the result array at the distance map of the padded first argument and the second. -/
theorem algebraic : Cert.algebraic_KernelIdeal_ReferenceIdeal := by
  intro m ρ m' ρ' _ hagree
  refine ⟨fun c => Cert.RbfSpec.rbfDist
      (Cert.RbfKernel.padOf (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Cert.RbfKernel.run m ρ, ?_⟩
  refine (θ_run Cert.ReferenceIdeal.defs _ _).mono (fun _ h c => ⟨?_, (h c).2⟩) (Cert.RbfRef.run m' ρ')
  rw [(h c).1, pad_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
